-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2000000 : Shape := ⟨1, ![2000000]⟩
abbrev S150000x64 : Shape := ⟨2, ![150000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S64x1 .f32) (main_arg21 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg20
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S64 .f32) (main_arg17 : FVec F S64x64 .f32) (main_arg18 : FVec F S64x64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x1 .f32) (main_arg21 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x1 .f32) (main_arg21 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2000000 32) (main_arg2 : IVec S2000000 32) (main_arg3 : FVec F S150000x64 .f32) (main_arg4 : FVec F S128x64 .f32) (main_arg5 : FVec F S64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x1 .f32) (main_arg21 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S150000x64 .f32 := Host.absf main_arg3
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2000000 : Shape := ⟨1, ![2000000]⟩
abbrev S150000x64 : Shape := ⟨2, ![150000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S2000000x1 : Shape := ⟨2, ![2000000, 1]⟩
abbrev S2000000x64 : Shape := ⟨2, ![2000000, 64]⟩
abbrev S150000 : Shape := ⟨1, ![150000]⟩
abbrev S150000x1 : Shape := ⟨2, ![150000, 1]⟩
abbrev S100000 : Shape := ⟨1, ![100000]⟩
abbrev S100000x1 : Shape := ⟨2, ![100000, 1]⟩
abbrev S5000x1 : Shape := ⟨2, ![5000, 1]⟩

abbrev nBuf : Space → Nat
  | .hbm => 108
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S2000000, .i32⟩
  | .hbm, ⟨2, _⟩ => ⟨S2000000, .i32⟩
  | .hbm, ⟨3, _⟩ => ⟨S150000x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64x64, .f32⟩
  | .hbm, ⟨19, _⟩ => ⟨S64, .f32⟩
  | .hbm, ⟨20, _⟩ => ⟨S64x1, .f32⟩
  | .hbm, ⟨21, _⟩ => ⟨S1, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x1, .f32⟩
  | .hbm, ⟨28, _⟩ => ⟨S100000x64, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x64, .f32⟩
  | .hbm, ⟨38, _⟩ => ⟨S_, .f32⟩
  | .hbm, ⟨39, _⟩ => ⟨S150000x64, .f32⟩
  | .hbm, ⟨40, _⟩ => ⟨S2000000x1, .i32⟩
  | .hbm, ⟨41, _⟩ => ⟨S150000x64, .f32⟩
  | .hbm, ⟨42, _⟩ => ⟨S_, .f32⟩
  | .hbm, ⟨43, _⟩ => ⟨S2000000, .f32⟩
  | .hbm, ⟨44, _⟩ => ⟨S_, .f32⟩
  | .hbm, ⟨45, _⟩ => ⟨S150000, .f32⟩
  | .hbm, ⟨46, _⟩ => ⟨S2000000x1, .i32⟩
  | .hbm, ⟨47, _⟩ => ⟨S150000, .f32⟩
  | .hbm, ⟨48, _⟩ => ⟨S_, .f32⟩
  | .hbm, ⟨49, _⟩ => ⟨S150000, .f32⟩
  | .hbm, ⟨50, _⟩ => ⟨S150000, .f32⟩
  | .hbm, ⟨51, _⟩ => ⟨S150000x1, .f32⟩
  | .hbm, ⟨52, _⟩ => ⟨S150000x64, .f32⟩
  | .hbm, ⟨53, _⟩ => ⟨S150000x64, .f32⟩
  | .hbm, ⟨54, _⟩ => ⟨S150000x64, .f32⟩
  | .hbm, ⟨55, _⟩ => ⟨S_, .i32⟩
  | .hbm, ⟨56, _⟩ => ⟨S2000000, .i32⟩
  | .hbm, ⟨57, _⟩ => ⟨S2000000, .i1⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S2000000, .i32⟩
  | .hbm, ⟨62, _⟩ => ⟨S2000000x1, .i32⟩
  | .hbm, ⟨63, _⟩ => ⟨S2000000x64, .f32⟩
  | .hbm, ⟨64, _⟩ => ⟨S_, .f32⟩
  | .hbm, ⟨65, _⟩ => ⟨S100000x64, .f32⟩
  | .hbm, ⟨66, _⟩ => ⟨S2000000x1, .i32⟩
  | .hbm, ⟨67, _⟩ => ⟨S100000x64, .f32⟩
  | .hbm, ⟨68, _⟩ => ⟨S_, .f32⟩
  | .hbm, ⟨69, _⟩ => ⟨S2000000, .f32⟩
  | .hbm, ⟨70, _⟩ => ⟨S_, .f32⟩
  | .hbm, ⟨71, _⟩ => ⟨S100000, .f32⟩
  | .hbm, ⟨72, _⟩ => ⟨S2000000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S2000000, .i32⟩
  | .hbm, ⟨83, _⟩ => ⟨S2000000, .i1⟩
  | .hbm, ⟨84, _⟩ => ⟨S_, .i32⟩
  | .hbm, ⟨85, _⟩ => ⟨S2000000, .i32⟩
  | .hbm, ⟨86, _⟩ => ⟨S2000000, .i32⟩
  | .hbm, ⟨87, _⟩ => ⟨S2000000, .i32⟩
  | .hbm, ⟨88, _⟩ => ⟨S2000000x1, .i32⟩
  | .hbm, ⟨89, _⟩ => ⟨S2000000x64, .f32⟩
  | .hbm, ⟨90, _⟩ => ⟨S_, .f32⟩
  | .hbm, ⟨91, _⟩ => ⟨S150000x64, .f32⟩
  | .hbm, ⟨92, _⟩ => ⟨S2000000x1, .i32⟩
  | .hbm, ⟨93, _⟩ => ⟨S150000x64, .f32⟩
  | .hbm, ⟨94, _⟩ => ⟨S_, .f32⟩
  | .hbm, ⟨95, _⟩ => ⟨S2000000, .f32⟩
  | .hbm, ⟨96, _⟩ => ⟨S_, .f32⟩
  | .hbm, ⟨97, _⟩ => ⟨S150000, .f32⟩
  | .hbm, ⟨98, _⟩ => ⟨S2000000x1, .i32⟩
  | .hbm, ⟨99, _⟩ => ⟨S150000, .f32⟩
  | .hbm, ⟨100, _⟩ => ⟨S_, .f32⟩
  | .hbm, ⟨101, _⟩ => ⟨S150000, .f32⟩
  | .hbm, ⟨102, _⟩ => ⟨S150000, .f32⟩
  | .hbm, ⟨103, _⟩ => ⟨S150000x1, .f32⟩
  | .hbm, ⟨104, _⟩ => ⟨S150000x64, .f32⟩
  | .hbm, ⟨105, _⟩ => ⟨S150000x64, .f32⟩
  | .hbm, ⟨106, _⟩ => ⟨S150000x64, .f32⟩
  | .hbm, ⟨107, _⟩ => ⟨S150000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S1x64, .f32⟩
  | .local _ .vmem, ⟨37, _⟩ => ⟨S64x1, .f32⟩
  | .local _ .vmem, ⟨38, _⟩ => ⟨S1x1, .f32⟩
  | .local _ .vmem, ⟨39, _⟩ => ⟨S5000x1, .f32⟩
  | .local _ .vmem, ⟨40, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_c_11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_12 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_13 : Ref sig .tc := ⟨.hbm, 94, rfl⟩
abbrev main_v57 : Ref sig .tc := ⟨.hbm, 95, rfl⟩
abbrev main_cst_14 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_15 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S64_S1x64 : S64.ShapeCasts S1x64
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x64_S5000x64_1_0_0_1_n_n_wf : DotDims.WF S5000x128 S128x64 S5000x64 [1] [0] [0] [1] [] []
  gather_S100000x64_S2000000x1_S2000000x64_1_0_n_n_0_1_164_wf : GatherDims.WF S100000x64 S2000000x1 S2000000x64 [1] [0] [] [0] [] 1 ![1, 64]
  scatter_S150000x64_S2000000x1_S2000000x64_1_0_0_1_wf : ScatterDims.WF S150000x64 S2000000x1 S2000000x64 [1] [0] [0] 1
  scatter_S150000_S2000000x1_S2000000_n_0_0_1_wf : ScatterDims.WF S150000 S2000000x1 S2000000 [] [0] [0] 1
  dot_S5000x64_S64x64_S5000x64_1_0_0_1_n_n_wf : DotDims.WF S5000x64 S64x64 S5000x64 [1] [0] [0] [1] [] []
  gather_S150000x64_S2000000x1_S2000000x64_1_0_n_n_0_1_164_wf : GatherDims.WF S150000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S150000x64.size a
  hwx1_5 : ∀ i : grid1.Coords, EltTy.bits .f32 = 32 ∨ (Rect.block (s := S150000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S150000x64.size a
  hwx3_5 : ∀ i : grid3.Coords, EltTy.bits .f32 = 32 ∨ (Rect.block (s := S150000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S150000x64.size a
  hwx4_0 : ∀ i : grid4.Coords, EltTy.bits .f32 = 32 ∨ (Rect.block (s := S150000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S150000x1.size a
  hwx4_5 : ∀ i : grid4.Coords, EltTy.bits .f32 = 32 ∨ (Rect.block (s := S150000x1) S5000x1.size (cc4_transform_5 i) (hinb4_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v5) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2000000 : Shape := ⟨1, ![2000000]⟩
abbrev S150000x64 : Shape := ⟨2, ![150000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩
abbrev S150000x1 : Shape := ⟨2, ![150000, 1]⟩
abbrev S100000x1 : Shape := ⟨2, ![100000, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2000000, .i32⟩
  | 2 => ⟨S2000000, .i32⟩
  | 3 => ⟨S150000x64, .f32⟩
  | 4 => ⟨S128x64, .f32⟩
  | 5 => ⟨S64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x1, .f32⟩
  | 21 => ⟨S1, .f32⟩
  | 22 => ⟨S100000x64, .f32⟩
  | 23 => ⟨S1x64, .f32⟩
  | 24 => ⟨S100000x64, .f32⟩
  | 25 => ⟨S100000x64, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x64, .f32⟩
  | 35 => ⟨S_, .f32⟩
  | 36 => ⟨S150000x64, .f32⟩
  | 37 => ⟨S2000000x1, .i32⟩
  | 38 => ⟨S150000x64, .f32⟩
  | 39 => ⟨S_, .f32⟩
  | 40 => ⟨S2000000x1, .f32⟩
  | 41 => ⟨S_, .f32⟩
  | 42 => ⟨S150000x1, .f32⟩
  | 43 => ⟨S2000000x1, .i32⟩
  | 44 => ⟨S150000x1, .f32⟩
  | 45 => ⟨S_, .f32⟩
  | 46 => ⟨S150000x1, .f32⟩
  | 47 => ⟨S150000x1, .f32⟩
  | 48 => ⟨S150000x64, .f32⟩
  | 49 => ⟨S150000x64, .f32⟩
  | 50 => ⟨S150000x64, .f32⟩
  | 51 => ⟨S1x64, .f32⟩
  | 52 => ⟨S150000x64, .f32⟩
  | 53 => ⟨S150000x64, .f32⟩
  | 54 => ⟨S150000x64, .f32⟩
  | 55 => ⟨S150000x64, .f32⟩
  | 56 => ⟨S_, .f32⟩
  | 57 => ⟨S150000x64, .f32⟩
  | 58 => ⟨S150000x64, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S_, .f32⟩
  | 69 => ⟨S100000x64, .f32⟩
  | 70 => ⟨S2000000x1, .i32⟩
  | 71 => ⟨S100000x64, .f32⟩
  | 72 => ⟨S_, .f32⟩
  | 73 => ⟨S2000000x1, .f32⟩
  | 74 => ⟨S_, .f32⟩
  | 75 => ⟨S100000x1, .f32⟩
  | 76 => ⟨S2000000x1, .i32⟩
  | 77 => ⟨S100000x1, .f32⟩
  | 78 => ⟨S_, .f32⟩
  | 79 => ⟨S100000x1, .f32⟩
  | 80 => ⟨S100000x1, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000x64, .f32⟩
  | 101 => ⟨S_, .f32⟩
  | 102 => ⟨S150000x64, .f32⟩
  | 103 => ⟨S2000000x1, .i32⟩
  | 104 => ⟨S150000x64, .f32⟩
  | 105 => ⟨S_, .f32⟩
  | 106 => ⟨S2000000x1, .f32⟩
  | 107 => ⟨S_, .f32⟩
  | 108 => ⟨S150000x1, .f32⟩
  | 109 => ⟨S2000000x1, .i32⟩
  | 110 => ⟨S150000x1, .f32⟩
  | 111 => ⟨S_, .f32⟩
  | 112 => ⟨S150000x1, .f32⟩
  | 113 => ⟨S150000x1, .f32⟩
  | 114 => ⟨S150000x64, .f32⟩
  | 115 => ⟨S150000x64, .f32⟩
  | 116 => ⟨S150000x64, .f32⟩
  | 117 => ⟨S1x64, .f32⟩
  | 118 => ⟨S150000x64, .f32⟩
  | 119 => ⟨S150000x64, .f32⟩
  | 120 => ⟨S150000x64, .f32⟩
  | 121 => ⟨S150000x64, .f32⟩
  | 122 => ⟨S_, .f32⟩
  | 123 => ⟨S150000x64, .f32⟩
  | 124 => ⟨S150000x64, .f32⟩
  | 125 => ⟨S150000x64, .f32⟩
  | 126 => ⟨S1x64, .f32⟩
  | 127 => ⟨S150000x64, .f32⟩
  | _ => ⟨S100000x128, .f32⟩

abbrev hbmTy0_1 (i : Nat) : BufTy := match i % 128 with
  | 0 => ⟨S150000x64, .f32⟩
  | 1 => ⟨S_, .f32⟩
  | 2 => ⟨S150000x64, .f32⟩
  | 3 => ⟨S150000x64, .f32⟩
  | 4 => ⟨S150000x1, .f32⟩
  | 5 => ⟨S1x1, .f32⟩
  | 6 => ⟨S150000x1, .f32⟩
  | 7 => ⟨S150000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call0_cst : Ref sig .tc := ⟨.hbm, 56, rfl⟩
abbrev main_call0_v0 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_cst_8 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call1_cst : Ref sig .tc := ⟨.hbm, 89, rfl⟩
abbrev main_call1_v0 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_cst_14 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call2_cst : Ref sig .tc := ⟨.hbm, 122, rfl⟩
abbrev main_call2_v0 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_call3_cst : Ref sig .tc := ⟨.hbm, 129, rfl⟩
abbrev main_call3_v0 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S150000x64 : S_.BroadcastsInDim S150000x64 (![] : Fin 0 → Fin S150000x64.rank)
  bcast_S_S2000000x1 : S_.BroadcastsInDim S2000000x1 (![] : Fin 0 → Fin S2000000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S1x64_S150000x64_0_1 : S1x64.BroadcastsInDim S150000x64 (![0, 1] : Fin 2 → Fin S150000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  dot_S100000x128_S128x64_S100000x64_1_0_0_1_n_n_wf : DotDims.WF S100000x128 S128x64 S100000x64 [1] [0] [0] [1] [] []
  gather_S100000x64_S2000000x1_S2000000x64_1_0_n_n_0_1_164_wf : GatherDims.WF S100000x64 S2000000x1 S2000000x64 [1] [0] [] [0] [] 1 ![1, 64]
  scatter_S150000x64_S2000000x1_S2000000x64_1_0_0_1_wf : ScatterDims.WF S150000x64 S2000000x1 S2000000x64 [1] [0] [0] 1
  scatter_S150000x1_S2000000x1_S2000000x1_1_0_0_1_wf : ScatterDims.WF S150000x1 S2000000x1 S2000000x1 [1] [0] [0] 1
  dot_S150000x64_S64x64_S150000x64_1_0_0_1_n_n_wf : DotDims.WF S150000x64 S64x64 S150000x64 [1] [0] [0] [1] [] []
  gather_S150000x64_S2000000x1_S2000000x64_1_0_n_n_0_1_164_wf : GatherDims.WF S150000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000x1_S2000000x1_S2000000x1_1_0_0_1_wf : ScatterDims.WF S100000x1 S2000000x1 S2000000x1 [1] [0] [0] 1
  dot_S100000x64_S64x64_S100000x64_1_0_0_1_n_n_wf : DotDims.WF S100000x64 S64x64 S100000x64 [1] [0] [0] [1] [] []
  dot_S150000x64_S64x1_S150000x1_1_0_0_1_n_n_wf : DotDims.WF S150000x64 S64x1 S150000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def scatter_S150000x1_S2000000x1_S2000000x1_1_0_0_1 : ScatterDims S150000x1 S2000000x1 S2000000x1 where
  updateWindowDims := [1]
  insertedWindowDims := [0]
  scatterDimsToOperandDims := [0]
  indexVectorDim := 1
  wf := scatter_S150000x1_S2000000x1_S2000000x1_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S150000x64_S64x1_S150000x1_1_0_0_1_n_n : DotDims S150000x64 S64x1 S150000x1 where
  lhsContracting := [1]
  rhsContracting := [0]
  lhsNonContracting := [0]
  rhsNonContracting := [1]
  lhsBatch := []
  rhsBatch := []
  wf := dot_S150000x64_S64x1_S150000x1_1_0_0_1_n_n_wf

class Facts : Prop extends Facts₀ where

variable [Facts]
-- ==== Proof.KernelRun.lean ====
/-
  The idealized kernel's run with its result named.  Every weakly fair execution of the program ends, nothing
  faulting, with the argument arrays as launched and the result buffer holding what the last of the five kernel
  regions leaves there: the fold of the buffer contents through the host stretches and the regions, read at the result
  buffer after the last region.  The run is the launch of the program's nine segments; only the reading of the final
  state differs from the frame claim, which keeps the arguments and forgets the result.
-/
import proofs.«179896_j37967510896698_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the arguments end as launched, and the result buffer ends at the contents the fold through the program
    gives it after the last region. -/
theorem run_named : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c)⟩)

end Cert.KernelIdeal.Named

end
-- ==== Proof.KernelKept.lean ====
/-
  What the argument arrays and the bias rows hold at each boundary between the program's segments.

  The program is nine segments: a host stretch that places each bias vector as a one-row matrix, then the five kernel
  regions with a host stretch (one mean aggregation) before each of the three combining regions.  No segment writes an
  argument: a host stretch writes only its own results, and a region writes only its output array, an input window's
  array ending as the region found it and every other buffer bypassing the region.  So at every boundary an argument
  holds its launch contents and a bias row holds the vector it was made from, reshaped.  Stated here for exactly the
  boundaries at which a later segment reads the buffer.
-/
import proofs.«179896_j37967510896698_1_alg».proof.Proof.Gen.KernelIdeal.Frame
import Idealize.ShloMosaic.Lib.StableHlo.Run
import Idealize.ShloMosaic.PureOps.Ideal

set_option maxRecDepth 16384

noncomputable section

namespace Cert.KernelIdeal.Trace

open Cert.KernelIdeal Cert.KernelIdeal.Gen
open Idealize.ShloMosaic Idealize.ShloMosaic.TcCoe Idealize.ShloMosaic.StableHlo
open Idealize.SL.Sem
open Idealize.ShloMosaic.Pipeline (Dat Cfg Window)

/-- A host stretch leaves a buffer it never writes as it found it: no operation of the list has that buffer as its
    result. -/
macro "host_kept " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg) (c : Dev nD)

theorem W0_main_arg0 : W0 (F := Ideal) m ρ c (Proc.devRef .tc main_arg0) = m ((c : Thread nD τ).loc main_arg0) := rfl
theorem W1_main_arg0 : W1 (F := Ideal) m ρ c (Proc.devRef .tc main_arg0) = m ((c : Thread nD τ).loc main_arg0) :=
  (show W1 (F := Ideal) m ρ c (Proc.devRef .tc main_arg0) = W0 (F := Ideal) m ρ c (Proc.devRef .tc main_arg0) from by host_kept hostOps0).trans (W0_main_arg0 m ρ c)

theorem W0_main_arg4 : W0 (F := Ideal) m ρ c (Proc.devRef .tc main_arg4) = m ((c : Thread nD τ).loc main_arg4) := rfl
theorem W1_main_arg4 : W1 (F := Ideal) m ρ c (Proc.devRef .tc main_arg4) = m ((c : Thread nD τ).loc main_arg4) :=
  (show W1 (F := Ideal) m ρ c (Proc.devRef .tc main_arg4) = W0 (F := Ideal) m ρ c (Proc.devRef .tc main_arg4) from by host_kept hostOps0).trans (W0_main_arg4 m ρ c)

theorem W0_main_arg1 : W0 (F := Ideal) m ρ c (Proc.devRef .tc main_arg1) = m ((c : Thread nD τ).loc main_arg1) := rfl
theorem W1_main_arg1 : W1 (F := Ideal) m ρ c (Proc.devRef .tc main_arg1) = m ((c : Thread nD τ).loc main_arg1) :=
  (show W1 (F := Ideal) m ρ c (Proc.devRef .tc main_arg1) = W0 (F := Ideal) m ρ c (Proc.devRef .tc main_arg1) from by host_kept hostOps0).trans (W0_main_arg1 m ρ c)
theorem W2_main_arg1 : W2 (F := Ideal) m ρ c (Proc.devRef .tc main_arg1) = m ((c : Thread nD τ).loc main_arg1) :=
  (W2_of_ne m ρ c main_arg1 (by decide)).trans (W1_main_arg1 m ρ c)
theorem W3_main_arg1 : W3 (F := Ideal) m ρ c (Proc.devRef .tc main_arg1) = m ((c : Thread nD τ).loc main_arg1) :=
  (show W3 (F := Ideal) m ρ c (Proc.devRef .tc main_arg1) = W2 (F := Ideal) m ρ c (Proc.devRef .tc main_arg1) from by host_kept hostOps1).trans (W2_main_arg1 m ρ c)
theorem W4_main_arg1 : W4 (F := Ideal) m ρ c (Proc.devRef .tc main_arg1) = m ((c : Thread nD τ).loc main_arg1) :=
  (W4_of_ne m ρ c main_arg1 (by decide)).trans (W3_main_arg1 m ρ c)
theorem W5_main_arg1 : W5 (F := Ideal) m ρ c (Proc.devRef .tc main_arg1) = m ((c : Thread nD τ).loc main_arg1) :=
  (show W5 (F := Ideal) m ρ c (Proc.devRef .tc main_arg1) = W4 (F := Ideal) m ρ c (Proc.devRef .tc main_arg1) from by host_kept hostOps2).trans (W4_main_arg1 m ρ c)
theorem W6_main_arg1 : W6 (F := Ideal) m ρ c (Proc.devRef .tc main_arg1) = m ((c : Thread nD τ).loc main_arg1) :=
  (W6_of_ne m ρ c main_arg1 (by decide)).trans (W5_main_arg1 m ρ c)

theorem W0_main_arg2 : W0 (F := Ideal) m ρ c (Proc.devRef .tc main_arg2) = m ((c : Thread nD τ).loc main_arg2) := rfl
theorem W1_main_arg2 : W1 (F := Ideal) m ρ c (Proc.devRef .tc main_arg2) = m ((c : Thread nD τ).loc main_arg2) :=
  (show W1 (F := Ideal) m ρ c (Proc.devRef .tc main_arg2) = W0 (F := Ideal) m ρ c (Proc.devRef .tc main_arg2) from by host_kept hostOps0).trans (W0_main_arg2 m ρ c)
theorem W2_main_arg2 : W2 (F := Ideal) m ρ c (Proc.devRef .tc main_arg2) = m ((c : Thread nD τ).loc main_arg2) :=
  (W2_of_ne m ρ c main_arg2 (by decide)).trans (W1_main_arg2 m ρ c)
theorem W3_main_arg2 : W3 (F := Ideal) m ρ c (Proc.devRef .tc main_arg2) = m ((c : Thread nD τ).loc main_arg2) :=
  (show W3 (F := Ideal) m ρ c (Proc.devRef .tc main_arg2) = W2 (F := Ideal) m ρ c (Proc.devRef .tc main_arg2) from by host_kept hostOps1).trans (W2_main_arg2 m ρ c)
theorem W4_main_arg2 : W4 (F := Ideal) m ρ c (Proc.devRef .tc main_arg2) = m ((c : Thread nD τ).loc main_arg2) :=
  (W4_of_ne m ρ c main_arg2 (by decide)).trans (W3_main_arg2 m ρ c)
theorem W5_main_arg2 : W5 (F := Ideal) m ρ c (Proc.devRef .tc main_arg2) = m ((c : Thread nD τ).loc main_arg2) :=
  (show W5 (F := Ideal) m ρ c (Proc.devRef .tc main_arg2) = W4 (F := Ideal) m ρ c (Proc.devRef .tc main_arg2) from by host_kept hostOps2).trans (W4_main_arg2 m ρ c)
theorem W6_main_arg2 : W6 (F := Ideal) m ρ c (Proc.devRef .tc main_arg2) = m ((c : Thread nD τ).loc main_arg2) :=
  (W6_of_ne m ρ c main_arg2 (by decide)).trans (W5_main_arg2 m ρ c)

theorem W0_main_arg3 : W0 (F := Ideal) m ρ c (Proc.devRef .tc main_arg3) = m ((c : Thread nD τ).loc main_arg3) := rfl
theorem W1_main_arg3 : W1 (F := Ideal) m ρ c (Proc.devRef .tc main_arg3) = m ((c : Thread nD τ).loc main_arg3) :=
  (show W1 (F := Ideal) m ρ c (Proc.devRef .tc main_arg3) = W0 (F := Ideal) m ρ c (Proc.devRef .tc main_arg3) from by host_kept hostOps0).trans (W0_main_arg3 m ρ c)
theorem W2_main_arg3 : W2 (F := Ideal) m ρ c (Proc.devRef .tc main_arg3) = m ((c : Thread nD τ).loc main_arg3) :=
  (W2_of_ne m ρ c main_arg3 (by decide)).trans (W1_main_arg3 m ρ c)
theorem W3_main_arg3 : W3 (F := Ideal) m ρ c (Proc.devRef .tc main_arg3) = m ((c : Thread nD τ).loc main_arg3) :=
  (show W3 (F := Ideal) m ρ c (Proc.devRef .tc main_arg3) = W2 (F := Ideal) m ρ c (Proc.devRef .tc main_arg3) from by host_kept hostOps1).trans (W2_main_arg3 m ρ c)
theorem W4_main_arg3 : W4 (F := Ideal) m ρ c (Proc.devRef .tc main_arg3) = m ((c : Thread nD τ).loc main_arg3) :=
  ((W4_arr m ρ c 1).trans (((dat1 (V3 m ρ) c).arrAt_in 1 rfl _).trans (A_eq1 (V3 m ρ) c 1))).trans (W3_main_arg3 m ρ c)

theorem W0_main_arg6 : W0 (F := Ideal) m ρ c (Proc.devRef .tc main_arg6) = m ((c : Thread nD τ).loc main_arg6) := rfl
theorem W1_main_arg6 : W1 (F := Ideal) m ρ c (Proc.devRef .tc main_arg6) = m ((c : Thread nD τ).loc main_arg6) :=
  (show W1 (F := Ideal) m ρ c (Proc.devRef .tc main_arg6) = W0 (F := Ideal) m ρ c (Proc.devRef .tc main_arg6) from by host_kept hostOps0).trans (W0_main_arg6 m ρ c)
theorem W2_main_arg6 : W2 (F := Ideal) m ρ c (Proc.devRef .tc main_arg6) = m ((c : Thread nD τ).loc main_arg6) :=
  (W2_of_ne m ρ c main_arg6 (by decide)).trans (W1_main_arg6 m ρ c)
theorem W3_main_arg6 : W3 (F := Ideal) m ρ c (Proc.devRef .tc main_arg6) = m ((c : Thread nD τ).loc main_arg6) :=
  (show W3 (F := Ideal) m ρ c (Proc.devRef .tc main_arg6) = W2 (F := Ideal) m ρ c (Proc.devRef .tc main_arg6) from by host_kept hostOps1).trans (W2_main_arg6 m ρ c)

theorem W0_main_arg8 : W0 (F := Ideal) m ρ c (Proc.devRef .tc main_arg8) = m ((c : Thread nD τ).loc main_arg8) := rfl
theorem W1_main_arg8 : W1 (F := Ideal) m ρ c (Proc.devRef .tc main_arg8) = m ((c : Thread nD τ).loc main_arg8) :=
  (show W1 (F := Ideal) m ρ c (Proc.devRef .tc main_arg8) = W0 (F := Ideal) m ρ c (Proc.devRef .tc main_arg8) from by host_kept hostOps0).trans (W0_main_arg8 m ρ c)
theorem W2_main_arg8 : W2 (F := Ideal) m ρ c (Proc.devRef .tc main_arg8) = m ((c : Thread nD τ).loc main_arg8) :=
  (W2_of_ne m ρ c main_arg8 (by decide)).trans (W1_main_arg8 m ρ c)
theorem W3_main_arg8 : W3 (F := Ideal) m ρ c (Proc.devRef .tc main_arg8) = m ((c : Thread nD τ).loc main_arg8) :=
  (show W3 (F := Ideal) m ρ c (Proc.devRef .tc main_arg8) = W2 (F := Ideal) m ρ c (Proc.devRef .tc main_arg8) from by host_kept hostOps1).trans (W2_main_arg8 m ρ c)

theorem W0_main_arg9 : W0 (F := Ideal) m ρ c (Proc.devRef .tc main_arg9) = m ((c : Thread nD τ).loc main_arg9) := rfl
theorem W1_main_arg9 : W1 (F := Ideal) m ρ c (Proc.devRef .tc main_arg9) = m ((c : Thread nD τ).loc main_arg9) :=
  (show W1 (F := Ideal) m ρ c (Proc.devRef .tc main_arg9) = W0 (F := Ideal) m ρ c (Proc.devRef .tc main_arg9) from by host_kept hostOps0).trans (W0_main_arg9 m ρ c)
theorem W2_main_arg9 : W2 (F := Ideal) m ρ c (Proc.devRef .tc main_arg9) = m ((c : Thread nD τ).loc main_arg9) :=
  (W2_of_ne m ρ c main_arg9 (by decide)).trans (W1_main_arg9 m ρ c)
theorem W3_main_arg9 : W3 (F := Ideal) m ρ c (Proc.devRef .tc main_arg9) = m ((c : Thread nD τ).loc main_arg9) :=
  (show W3 (F := Ideal) m ρ c (Proc.devRef .tc main_arg9) = W2 (F := Ideal) m ρ c (Proc.devRef .tc main_arg9) from by host_kept hostOps1).trans (W2_main_arg9 m ρ c)
theorem W4_main_arg9 : W4 (F := Ideal) m ρ c (Proc.devRef .tc main_arg9) = m ((c : Thread nD τ).loc main_arg9) :=
  (W4_of_ne m ρ c main_arg9 (by decide)).trans (W3_main_arg9 m ρ c)
theorem W5_main_arg9 : W5 (F := Ideal) m ρ c (Proc.devRef .tc main_arg9) = m ((c : Thread nD τ).loc main_arg9) :=
  (show W5 (F := Ideal) m ρ c (Proc.devRef .tc main_arg9) = W4 (F := Ideal) m ρ c (Proc.devRef .tc main_arg9) from by host_kept hostOps2).trans (W4_main_arg9 m ρ c)

theorem W0_main_arg11 : W0 (F := Ideal) m ρ c (Proc.devRef .tc main_arg11) = m ((c : Thread nD τ).loc main_arg11) := rfl
theorem W1_main_arg11 : W1 (F := Ideal) m ρ c (Proc.devRef .tc main_arg11) = m ((c : Thread nD τ).loc main_arg11) :=
  (show W1 (F := Ideal) m ρ c (Proc.devRef .tc main_arg11) = W0 (F := Ideal) m ρ c (Proc.devRef .tc main_arg11) from by host_kept hostOps0).trans (W0_main_arg11 m ρ c)
theorem W2_main_arg11 : W2 (F := Ideal) m ρ c (Proc.devRef .tc main_arg11) = m ((c : Thread nD τ).loc main_arg11) :=
  (W2_of_ne m ρ c main_arg11 (by decide)).trans (W1_main_arg11 m ρ c)
theorem W3_main_arg11 : W3 (F := Ideal) m ρ c (Proc.devRef .tc main_arg11) = m ((c : Thread nD τ).loc main_arg11) :=
  (show W3 (F := Ideal) m ρ c (Proc.devRef .tc main_arg11) = W2 (F := Ideal) m ρ c (Proc.devRef .tc main_arg11) from by host_kept hostOps1).trans (W2_main_arg11 m ρ c)
theorem W4_main_arg11 : W4 (F := Ideal) m ρ c (Proc.devRef .tc main_arg11) = m ((c : Thread nD τ).loc main_arg11) :=
  (W4_of_ne m ρ c main_arg11 (by decide)).trans (W3_main_arg11 m ρ c)
theorem W5_main_arg11 : W5 (F := Ideal) m ρ c (Proc.devRef .tc main_arg11) = m ((c : Thread nD τ).loc main_arg11) :=
  (show W5 (F := Ideal) m ρ c (Proc.devRef .tc main_arg11) = W4 (F := Ideal) m ρ c (Proc.devRef .tc main_arg11) from by host_kept hostOps2).trans (W4_main_arg11 m ρ c)

theorem W0_main_arg12 : W0 (F := Ideal) m ρ c (Proc.devRef .tc main_arg12) = m ((c : Thread nD τ).loc main_arg12) := rfl
theorem W1_main_arg12 : W1 (F := Ideal) m ρ c (Proc.devRef .tc main_arg12) = m ((c : Thread nD τ).loc main_arg12) :=
  (show W1 (F := Ideal) m ρ c (Proc.devRef .tc main_arg12) = W0 (F := Ideal) m ρ c (Proc.devRef .tc main_arg12) from by host_kept hostOps0).trans (W0_main_arg12 m ρ c)
theorem W2_main_arg12 : W2 (F := Ideal) m ρ c (Proc.devRef .tc main_arg12) = m ((c : Thread nD τ).loc main_arg12) :=
  (W2_of_ne m ρ c main_arg12 (by decide)).trans (W1_main_arg12 m ρ c)
theorem W3_main_arg12 : W3 (F := Ideal) m ρ c (Proc.devRef .tc main_arg12) = m ((c : Thread nD τ).loc main_arg12) :=
  (show W3 (F := Ideal) m ρ c (Proc.devRef .tc main_arg12) = W2 (F := Ideal) m ρ c (Proc.devRef .tc main_arg12) from by host_kept hostOps1).trans (W2_main_arg12 m ρ c)
theorem W4_main_arg12 : W4 (F := Ideal) m ρ c (Proc.devRef .tc main_arg12) = m ((c : Thread nD τ).loc main_arg12) :=
  (W4_of_ne m ρ c main_arg12 (by decide)).trans (W3_main_arg12 m ρ c)
theorem W5_main_arg12 : W5 (F := Ideal) m ρ c (Proc.devRef .tc main_arg12) = m ((c : Thread nD τ).loc main_arg12) :=
  (show W5 (F := Ideal) m ρ c (Proc.devRef .tc main_arg12) = W4 (F := Ideal) m ρ c (Proc.devRef .tc main_arg12) from by host_kept hostOps2).trans (W4_main_arg12 m ρ c)
theorem W6_main_arg12 : W6 (F := Ideal) m ρ c (Proc.devRef .tc main_arg12) = m ((c : Thread nD τ).loc main_arg12) :=
  (W6_of_ne m ρ c main_arg12 (by decide)).trans (W5_main_arg12 m ρ c)
theorem W7_main_arg12 : W7 (F := Ideal) m ρ c (Proc.devRef .tc main_arg12) = m ((c : Thread nD τ).loc main_arg12) :=
  (show W7 (F := Ideal) m ρ c (Proc.devRef .tc main_arg12) = W6 (F := Ideal) m ρ c (Proc.devRef .tc main_arg12) from by host_kept hostOps3).trans (W6_main_arg12 m ρ c)

theorem W0_main_arg14 : W0 (F := Ideal) m ρ c (Proc.devRef .tc main_arg14) = m ((c : Thread nD τ).loc main_arg14) := rfl
theorem W1_main_arg14 : W1 (F := Ideal) m ρ c (Proc.devRef .tc main_arg14) = m ((c : Thread nD τ).loc main_arg14) :=
  (show W1 (F := Ideal) m ρ c (Proc.devRef .tc main_arg14) = W0 (F := Ideal) m ρ c (Proc.devRef .tc main_arg14) from by host_kept hostOps0).trans (W0_main_arg14 m ρ c)
theorem W2_main_arg14 : W2 (F := Ideal) m ρ c (Proc.devRef .tc main_arg14) = m ((c : Thread nD τ).loc main_arg14) :=
  (W2_of_ne m ρ c main_arg14 (by decide)).trans (W1_main_arg14 m ρ c)
theorem W3_main_arg14 : W3 (F := Ideal) m ρ c (Proc.devRef .tc main_arg14) = m ((c : Thread nD τ).loc main_arg14) :=
  (show W3 (F := Ideal) m ρ c (Proc.devRef .tc main_arg14) = W2 (F := Ideal) m ρ c (Proc.devRef .tc main_arg14) from by host_kept hostOps1).trans (W2_main_arg14 m ρ c)
theorem W4_main_arg14 : W4 (F := Ideal) m ρ c (Proc.devRef .tc main_arg14) = m ((c : Thread nD τ).loc main_arg14) :=
  (W4_of_ne m ρ c main_arg14 (by decide)).trans (W3_main_arg14 m ρ c)
theorem W5_main_arg14 : W5 (F := Ideal) m ρ c (Proc.devRef .tc main_arg14) = m ((c : Thread nD τ).loc main_arg14) :=
  (show W5 (F := Ideal) m ρ c (Proc.devRef .tc main_arg14) = W4 (F := Ideal) m ρ c (Proc.devRef .tc main_arg14) from by host_kept hostOps2).trans (W4_main_arg14 m ρ c)
theorem W6_main_arg14 : W6 (F := Ideal) m ρ c (Proc.devRef .tc main_arg14) = m ((c : Thread nD τ).loc main_arg14) :=
  (W6_of_ne m ρ c main_arg14 (by decide)).trans (W5_main_arg14 m ρ c)
theorem W7_main_arg14 : W7 (F := Ideal) m ρ c (Proc.devRef .tc main_arg14) = m ((c : Thread nD τ).loc main_arg14) :=
  (show W7 (F := Ideal) m ρ c (Proc.devRef .tc main_arg14) = W6 (F := Ideal) m ρ c (Proc.devRef .tc main_arg14) from by host_kept hostOps3).trans (W6_main_arg14 m ρ c)

theorem W0_main_arg18 : W0 (F := Ideal) m ρ c (Proc.devRef .tc main_arg18) = m ((c : Thread nD τ).loc main_arg18) := rfl
theorem W1_main_arg18 : W1 (F := Ideal) m ρ c (Proc.devRef .tc main_arg18) = m ((c : Thread nD τ).loc main_arg18) :=
  (show W1 (F := Ideal) m ρ c (Proc.devRef .tc main_arg18) = W0 (F := Ideal) m ρ c (Proc.devRef .tc main_arg18) from by host_kept hostOps0).trans (W0_main_arg18 m ρ c)
theorem W2_main_arg18 : W2 (F := Ideal) m ρ c (Proc.devRef .tc main_arg18) = m ((c : Thread nD τ).loc main_arg18) :=
  (W2_of_ne m ρ c main_arg18 (by decide)).trans (W1_main_arg18 m ρ c)
theorem W3_main_arg18 : W3 (F := Ideal) m ρ c (Proc.devRef .tc main_arg18) = m ((c : Thread nD τ).loc main_arg18) :=
  (show W3 (F := Ideal) m ρ c (Proc.devRef .tc main_arg18) = W2 (F := Ideal) m ρ c (Proc.devRef .tc main_arg18) from by host_kept hostOps1).trans (W2_main_arg18 m ρ c)
theorem W4_main_arg18 : W4 (F := Ideal) m ρ c (Proc.devRef .tc main_arg18) = m ((c : Thread nD τ).loc main_arg18) :=
  (W4_of_ne m ρ c main_arg18 (by decide)).trans (W3_main_arg18 m ρ c)
theorem W5_main_arg18 : W5 (F := Ideal) m ρ c (Proc.devRef .tc main_arg18) = m ((c : Thread nD τ).loc main_arg18) :=
  (show W5 (F := Ideal) m ρ c (Proc.devRef .tc main_arg18) = W4 (F := Ideal) m ρ c (Proc.devRef .tc main_arg18) from by host_kept hostOps2).trans (W4_main_arg18 m ρ c)
theorem W6_main_arg18 : W6 (F := Ideal) m ρ c (Proc.devRef .tc main_arg18) = m ((c : Thread nD τ).loc main_arg18) :=
  (W6_of_ne m ρ c main_arg18 (by decide)).trans (W5_main_arg18 m ρ c)
theorem W7_main_arg18 : W7 (F := Ideal) m ρ c (Proc.devRef .tc main_arg18) = m ((c : Thread nD τ).loc main_arg18) :=
  (show W7 (F := Ideal) m ρ c (Proc.devRef .tc main_arg18) = W6 (F := Ideal) m ρ c (Proc.devRef .tc main_arg18) from by host_kept hostOps3).trans (W6_main_arg18 m ρ c)
theorem W8_main_arg18 : W8 (F := Ideal) m ρ c (Proc.devRef .tc main_arg18) = m ((c : Thread nD τ).loc main_arg18) :=
  (W8_of_ne m ρ c main_arg18 (by decide)).trans (W7_main_arg18 m ρ c)

theorem W0_main_arg20 : W0 (F := Ideal) m ρ c (Proc.devRef .tc main_arg20) = m ((c : Thread nD τ).loc main_arg20) := rfl
theorem W1_main_arg20 : W1 (F := Ideal) m ρ c (Proc.devRef .tc main_arg20) = m ((c : Thread nD τ).loc main_arg20) :=
  (show W1 (F := Ideal) m ρ c (Proc.devRef .tc main_arg20) = W0 (F := Ideal) m ρ c (Proc.devRef .tc main_arg20) from by host_kept hostOps0).trans (W0_main_arg20 m ρ c)
theorem W2_main_arg20 : W2 (F := Ideal) m ρ c (Proc.devRef .tc main_arg20) = m ((c : Thread nD τ).loc main_arg20) :=
  (W2_of_ne m ρ c main_arg20 (by decide)).trans (W1_main_arg20 m ρ c)
theorem W3_main_arg20 : W3 (F := Ideal) m ρ c (Proc.devRef .tc main_arg20) = m ((c : Thread nD τ).loc main_arg20) :=
  (show W3 (F := Ideal) m ρ c (Proc.devRef .tc main_arg20) = W2 (F := Ideal) m ρ c (Proc.devRef .tc main_arg20) from by host_kept hostOps1).trans (W2_main_arg20 m ρ c)
theorem W4_main_arg20 : W4 (F := Ideal) m ρ c (Proc.devRef .tc main_arg20) = m ((c : Thread nD τ).loc main_arg20) :=
  (W4_of_ne m ρ c main_arg20 (by decide)).trans (W3_main_arg20 m ρ c)
theorem W5_main_arg20 : W5 (F := Ideal) m ρ c (Proc.devRef .tc main_arg20) = m ((c : Thread nD τ).loc main_arg20) :=
  (show W5 (F := Ideal) m ρ c (Proc.devRef .tc main_arg20) = W4 (F := Ideal) m ρ c (Proc.devRef .tc main_arg20) from by host_kept hostOps2).trans (W4_main_arg20 m ρ c)
theorem W6_main_arg20 : W6 (F := Ideal) m ρ c (Proc.devRef .tc main_arg20) = m ((c : Thread nD τ).loc main_arg20) :=
  (W6_of_ne m ρ c main_arg20 (by decide)).trans (W5_main_arg20 m ρ c)
theorem W7_main_arg20 : W7 (F := Ideal) m ρ c (Proc.devRef .tc main_arg20) = m ((c : Thread nD τ).loc main_arg20) :=
  (show W7 (F := Ideal) m ρ c (Proc.devRef .tc main_arg20) = W6 (F := Ideal) m ρ c (Proc.devRef .tc main_arg20) from by host_kept hostOps3).trans (W6_main_arg20 m ρ c)
theorem W8_main_arg20 : W8 (F := Ideal) m ρ c (Proc.devRef .tc main_arg20) = m ((c : Thread nD τ).loc main_arg20) :=
  (W8_of_ne m ρ c main_arg20 (by decide)).trans (W7_main_arg20 m ρ c)

/-- The bias vector placed as a one-row matrix by the first host stretch. -/
theorem W1_main_v0 : W1 (F := Ideal) m ρ c (Proc.devRef .tc main_v0) = shapeCast S1x64 (m ((c : Thread nD τ).loc main_arg5)) shapeCasts_S64_S1x64 := by
  show StableHlo.after hostOps0 (W0 (F := Ideal) m ρ c) (Proc.devRef .tc main_v0) = _
  after_results
  rfl

/-- The bias vector placed as a one-row matrix by the first host stretch. -/
theorem W1_main_v1 : W1 (F := Ideal) m ρ c (Proc.devRef .tc main_v1) = shapeCast S1x64 (m ((c : Thread nD τ).loc main_arg7)) shapeCasts_S64_S1x64 := by
  show StableHlo.after hostOps0 (W0 (F := Ideal) m ρ c) (Proc.devRef .tc main_v1) = _
  after_results
  rfl
theorem W2_main_v1 : W2 (F := Ideal) m ρ c (Proc.devRef .tc main_v1) = shapeCast S1x64 (m ((c : Thread nD τ).loc main_arg7)) shapeCasts_S64_S1x64 :=
  (W2_of_ne m ρ c main_v1 (by decide)).trans (W1_main_v1 m ρ c)
theorem W3_main_v1 : W3 (F := Ideal) m ρ c (Proc.devRef .tc main_v1) = shapeCast S1x64 (m ((c : Thread nD τ).loc main_arg7)) shapeCasts_S64_S1x64 :=
  (show W3 (F := Ideal) m ρ c (Proc.devRef .tc main_v1) = W2 (F := Ideal) m ρ c (Proc.devRef .tc main_v1) from by host_kept hostOps1).trans (W2_main_v1 m ρ c)

/-- The bias vector placed as a one-row matrix by the first host stretch. -/
theorem W1_main_v2 : W1 (F := Ideal) m ρ c (Proc.devRef .tc main_v2) = shapeCast S1x64 (m ((c : Thread nD τ).loc main_arg10)) shapeCasts_S64_S1x64 := by
  show StableHlo.after hostOps0 (W0 (F := Ideal) m ρ c) (Proc.devRef .tc main_v2) = _
  after_results
  rfl
theorem W2_main_v2 : W2 (F := Ideal) m ρ c (Proc.devRef .tc main_v2) = shapeCast S1x64 (m ((c : Thread nD τ).loc main_arg10)) shapeCasts_S64_S1x64 :=
  (W2_of_ne m ρ c main_v2 (by decide)).trans (W1_main_v2 m ρ c)
theorem W3_main_v2 : W3 (F := Ideal) m ρ c (Proc.devRef .tc main_v2) = shapeCast S1x64 (m ((c : Thread nD τ).loc main_arg10)) shapeCasts_S64_S1x64 :=
  (show W3 (F := Ideal) m ρ c (Proc.devRef .tc main_v2) = W2 (F := Ideal) m ρ c (Proc.devRef .tc main_v2) from by host_kept hostOps1).trans (W2_main_v2 m ρ c)
theorem W4_main_v2 : W4 (F := Ideal) m ρ c (Proc.devRef .tc main_v2) = shapeCast S1x64 (m ((c : Thread nD τ).loc main_arg10)) shapeCasts_S64_S1x64 :=
  (W4_of_ne m ρ c main_v2 (by decide)).trans (W3_main_v2 m ρ c)
theorem W5_main_v2 : W5 (F := Ideal) m ρ c (Proc.devRef .tc main_v2) = shapeCast S1x64 (m ((c : Thread nD τ).loc main_arg10)) shapeCasts_S64_S1x64 :=
  (show W5 (F := Ideal) m ρ c (Proc.devRef .tc main_v2) = W4 (F := Ideal) m ρ c (Proc.devRef .tc main_v2) from by host_kept hostOps2).trans (W4_main_v2 m ρ c)

/-- The bias vector placed as a one-row matrix by the first host stretch. -/
theorem W1_main_v3 : W1 (F := Ideal) m ρ c (Proc.devRef .tc main_v3) = shapeCast S1x64 (m ((c : Thread nD τ).loc main_arg13)) shapeCasts_S64_S1x64 := by
  show StableHlo.after hostOps0 (W0 (F := Ideal) m ρ c) (Proc.devRef .tc main_v3) = _
  after_results
  rfl
theorem W2_main_v3 : W2 (F := Ideal) m ρ c (Proc.devRef .tc main_v3) = shapeCast S1x64 (m ((c : Thread nD τ).loc main_arg13)) shapeCasts_S64_S1x64 :=
  (W2_of_ne m ρ c main_v3 (by decide)).trans (W1_main_v3 m ρ c)
theorem W3_main_v3 : W3 (F := Ideal) m ρ c (Proc.devRef .tc main_v3) = shapeCast S1x64 (m ((c : Thread nD τ).loc main_arg13)) shapeCasts_S64_S1x64 :=
  (show W3 (F := Ideal) m ρ c (Proc.devRef .tc main_v3) = W2 (F := Ideal) m ρ c (Proc.devRef .tc main_v3) from by host_kept hostOps1).trans (W2_main_v3 m ρ c)
theorem W4_main_v3 : W4 (F := Ideal) m ρ c (Proc.devRef .tc main_v3) = shapeCast S1x64 (m ((c : Thread nD τ).loc main_arg13)) shapeCasts_S64_S1x64 :=
  (W4_of_ne m ρ c main_v3 (by decide)).trans (W3_main_v3 m ρ c)
theorem W5_main_v3 : W5 (F := Ideal) m ρ c (Proc.devRef .tc main_v3) = shapeCast S1x64 (m ((c : Thread nD τ).loc main_arg13)) shapeCasts_S64_S1x64 :=
  (show W5 (F := Ideal) m ρ c (Proc.devRef .tc main_v3) = W4 (F := Ideal) m ρ c (Proc.devRef .tc main_v3) from by host_kept hostOps2).trans (W4_main_v3 m ρ c)
theorem W6_main_v3 : W6 (F := Ideal) m ρ c (Proc.devRef .tc main_v3) = shapeCast S1x64 (m ((c : Thread nD τ).loc main_arg13)) shapeCasts_S64_S1x64 :=
  (W6_of_ne m ρ c main_v3 (by decide)).trans (W5_main_v3 m ρ c)
theorem W7_main_v3 : W7 (F := Ideal) m ρ c (Proc.devRef .tc main_v3) = shapeCast S1x64 (m ((c : Thread nD τ).loc main_arg13)) shapeCasts_S64_S1x64 :=
  (show W7 (F := Ideal) m ρ c (Proc.devRef .tc main_v3) = W6 (F := Ideal) m ρ c (Proc.devRef .tc main_v3) from by host_kept hostOps3).trans (W6_main_v3 m ρ c)

/-- The bias vector placed as a one-row matrix by the first host stretch. -/
theorem W1_main_v4 : W1 (F := Ideal) m ρ c (Proc.devRef .tc main_v4) = shapeCast S1x64 (m ((c : Thread nD τ).loc main_arg19)) shapeCasts_S64_S1x64 := by
  show StableHlo.after hostOps0 (W0 (F := Ideal) m ρ c) (Proc.devRef .tc main_v4) = _
  after_results
  rfl
theorem W2_main_v4 : W2 (F := Ideal) m ρ c (Proc.devRef .tc main_v4) = shapeCast S1x64 (m ((c : Thread nD τ).loc main_arg19)) shapeCasts_S64_S1x64 :=
  (W2_of_ne m ρ c main_v4 (by decide)).trans (W1_main_v4 m ρ c)
theorem W3_main_v4 : W3 (F := Ideal) m ρ c (Proc.devRef .tc main_v4) = shapeCast S1x64 (m ((c : Thread nD τ).loc main_arg19)) shapeCasts_S64_S1x64 :=
  (show W3 (F := Ideal) m ρ c (Proc.devRef .tc main_v4) = W2 (F := Ideal) m ρ c (Proc.devRef .tc main_v4) from by host_kept hostOps1).trans (W2_main_v4 m ρ c)
theorem W4_main_v4 : W4 (F := Ideal) m ρ c (Proc.devRef .tc main_v4) = shapeCast S1x64 (m ((c : Thread nD τ).loc main_arg19)) shapeCasts_S64_S1x64 :=
  (W4_of_ne m ρ c main_v4 (by decide)).trans (W3_main_v4 m ρ c)
theorem W5_main_v4 : W5 (F := Ideal) m ρ c (Proc.devRef .tc main_v4) = shapeCast S1x64 (m ((c : Thread nD τ).loc main_arg19)) shapeCasts_S64_S1x64 :=
  (show W5 (F := Ideal) m ρ c (Proc.devRef .tc main_v4) = W4 (F := Ideal) m ρ c (Proc.devRef .tc main_v4) from by host_kept hostOps2).trans (W4_main_v4 m ρ c)
theorem W6_main_v4 : W6 (F := Ideal) m ρ c (Proc.devRef .tc main_v4) = shapeCast S1x64 (m ((c : Thread nD τ).loc main_arg19)) shapeCasts_S64_S1x64 :=
  (W6_of_ne m ρ c main_v4 (by decide)).trans (W5_main_v4 m ρ c)
theorem W7_main_v4 : W7 (F := Ideal) m ρ c (Proc.devRef .tc main_v4) = shapeCast S1x64 (m ((c : Thread nD τ).loc main_arg19)) shapeCasts_S64_S1x64 :=
  (show W7 (F := Ideal) m ρ c (Proc.devRef .tc main_v4) = W6 (F := Ideal) m ρ c (Proc.devRef .tc main_v4) from by host_kept hostOps3).trans (W6_main_v4 m ρ c)
theorem W8_main_v4 : W8 (F := Ideal) m ρ c (Proc.devRef .tc main_v4) = shapeCast S1x64 (m ((c : Thread nD τ).loc main_arg19)) shapeCasts_S64_S1x64 :=
  (W8_of_ne m ρ c main_v4 (by decide)).trans (W7_main_v4 m ρ c)

/-- The bias vector placed as a one-row matrix by the first host stretch. -/
theorem W1_main_v5 : W1 (F := Ideal) m ρ c (Proc.devRef .tc main_v5) = shapeCast S1x1 (m ((c : Thread nD τ).loc main_arg21)) shapeCasts_S1_S1x1 := by
  show StableHlo.after hostOps0 (W0 (F := Ideal) m ρ c) (Proc.devRef .tc main_v5) = _
  after_results
  rfl
theorem W2_main_v5 : W2 (F := Ideal) m ρ c (Proc.devRef .tc main_v5) = shapeCast S1x1 (m ((c : Thread nD τ).loc main_arg21)) shapeCasts_S1_S1x1 :=
  (W2_of_ne m ρ c main_v5 (by decide)).trans (W1_main_v5 m ρ c)
theorem W3_main_v5 : W3 (F := Ideal) m ρ c (Proc.devRef .tc main_v5) = shapeCast S1x1 (m ((c : Thread nD τ).loc main_arg21)) shapeCasts_S1_S1x1 :=
  (show W3 (F := Ideal) m ρ c (Proc.devRef .tc main_v5) = W2 (F := Ideal) m ρ c (Proc.devRef .tc main_v5) from by host_kept hostOps1).trans (W2_main_v5 m ρ c)
theorem W4_main_v5 : W4 (F := Ideal) m ρ c (Proc.devRef .tc main_v5) = shapeCast S1x1 (m ((c : Thread nD τ).loc main_arg21)) shapeCasts_S1_S1x1 :=
  (W4_of_ne m ρ c main_v5 (by decide)).trans (W3_main_v5 m ρ c)
theorem W5_main_v5 : W5 (F := Ideal) m ρ c (Proc.devRef .tc main_v5) = shapeCast S1x1 (m ((c : Thread nD τ).loc main_arg21)) shapeCasts_S1_S1x1 :=
  (show W5 (F := Ideal) m ρ c (Proc.devRef .tc main_v5) = W4 (F := Ideal) m ρ c (Proc.devRef .tc main_v5) from by host_kept hostOps2).trans (W4_main_v5 m ρ c)
theorem W6_main_v5 : W6 (F := Ideal) m ρ c (Proc.devRef .tc main_v5) = shapeCast S1x1 (m ((c : Thread nD τ).loc main_arg21)) shapeCasts_S1_S1x1 :=
  (W6_of_ne m ρ c main_v5 (by decide)).trans (W5_main_v5 m ρ c)
theorem W7_main_v5 : W7 (F := Ideal) m ρ c (Proc.devRef .tc main_v5) = shapeCast S1x1 (m ((c : Thread nD τ).loc main_arg21)) shapeCasts_S1_S1x1 :=
  (show W7 (F := Ideal) m ρ c (Proc.devRef .tc main_v5) = W6 (F := Ideal) m ρ c (Proc.devRef .tc main_v5) from by host_kept hostOps3).trans (W6_main_v5 m ρ c)
theorem W8_main_v5 : W8 (F := Ideal) m ρ c (Proc.devRef .tc main_v5) = shapeCast S1x1 (m ((c : Thread nD τ).loc main_arg21)) shapeCasts_S1_S1x1 :=
  (W8_of_ne m ρ c main_v5 (by decide)).trans (W7_main_v5 m ρ c)

end Cert.KernelIdeal.Trace

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«179896_j37967510896698_1_alg».proof.Proof.LibPlainDot
import proofs.«179896_j37967510896698_1_alg».proof.Proof.LibBiasRow
import proofs.«179896_j37967510896698_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibDualLayer.lean ====
/-
  Two matrices through two weight matrices: the sum of the two products, a bias row added to every row, the floor at zero;
  and one matrix through one weight matrix with a bias row and no floor.

  On the extended reals, for an [n, k1] matrix a, an [n, k2] matrix b, weights wa of [k1, d] and wb of [k2, d] and a one-row
  bias, `dual` has at (p, o) the value  max((sum over j of a(p, j) * wa(j, o) + sum over j of b(p, j) * wb(j, o)) + bias(0, o), 0),
  and `lin` has  sum over j of a(p, j) * w(j, o) + bias(0, o).  Row p of either depends on row p of the matrix operands
  only (`dual_row`, `lin_row`), so a block of rows put through the stage is the same rows of the stage of the whole
  matrix.  Adding the bias row between the two products instead of after them gives the same matrix (`biasBetween_eq_dual`):
  addition of extended reals is commutative and associative, nothing is distributed or cancelled, so this holds at the
  infinities too.

  A matrix unit spells `dual` as two products into zero accumulators (operands of any float formats), their sum, the bias
  row spread over the rows and added, and the maximum against a splat of the zero word (`unit_dual`); a host program
  spells it as a contraction, the bias vector placed as a row, spread and added, the second contraction added, and the
  maximum against the zero word spread from a scalar (`host_dual`), its bias row the vector reshaped to one row.
  `unit_lin` and `host_lin` are the same two spellings of `lin`.
-/
import Idealize.ShloMosaic.PureOps.Ideal
import Idealize.ShloMosaic.Lib.ValueIdx
import Idealize.ShloMosaic.Lib.Pipeline.Value
import proofs.«179896_j37967510896698_1_alg».proof.Proof.LibRowStages

noncomputable section

open scoped BigOperators

namespace Cert.LibDualLayer

open Idealize.ShloMosaic Idealize.ShloMosaic.ValueIdx Cert.LibRowStages

/-- The entrywise sum of two matrices. -/
def madd {n k : ℕ} (x y : Mat n k) : Mat n k := fun i => x i + y i

theorem madd_row {m n k : ℕ} {xb yb : Mat m k} {q : Fin m} {x y : Mat n k} {p : Fin n}
    (hx : RowEq xb q x p) (hy : RowEq yb q y p) : RowEq (madd xb yb) q (madd x y) p := fun j => by
  show xb (ix2 q j) + yb (ix2 q j) = x (ix2 p j) + y (ix2 p j)
  rw [hx j, hy j]

/-- Two products summed, the bias row added, the floor at zero. -/
def dual {n k1 k2 d : ℕ} (a : Mat n k1) (b : Mat n k2) (wa : Mat k1 d) (wb : Mat k2 d) (bias : Mat 1 d) : Mat n d :=
  relu (addRow (madd (mm a wa) (mm b wb)) bias)

/-- One product with the bias row added. -/
def lin {n k d : ℕ} (a : Mat n k) (w : Mat k d) (bias : Mat 1 d) : Mat n d := addRow (mm a w) bias

/-- `dual` works one row at a time. -/
theorem dual_row {m n k1 k2 d : ℕ} {ab : Mat m k1} {bb : Mat m k2} {q : Fin m} {a : Mat n k1} {b : Mat n k2} {p : Fin n}
    (ha : RowEq ab q a p) (hb : RowEq bb q b p) (wa : Mat k1 d) (wb : Mat k2 d) (bias : Mat 1 d) :
    RowEq (dual ab bb wa wb bias) q (dual a b wa wb bias) p :=
  relu_row (addRow_row (madd_row (mm_row ha wa) (mm_row hb wb)) bias)

/-- `lin` works one row at a time. -/
theorem lin_row {m n k d : ℕ} {ab : Mat m k} {q : Fin m} {a : Mat n k} {p : Fin n} (h : RowEq ab q a p)
    (w : Mat k d) (bias : Mat 1 d) : RowEq (lin ab w bias) q (lin a w bias) p :=
  addRow_row (mm_row h w) bias

/-- The bias row added between the two products instead of after them: the same matrix. -/
theorem biasBetween_eq_dual {n k1 k2 d : ℕ} (a : Mat n k1) (b : Mat n k2) (wa : Mat k1 d) (wb : Mat k2 d) (bias : Mat 1 d) :
    relu (madd (addRow (mm a wa) bias) (mm b wb)) = dual a b wa wb bias := by
  funext i
  show max ((mm a wa i + bias (ix2 (0 : Fin 1) (i 1))) + mm b wb i) floor0
    = max ((mm a wa i + mm b wb i) + bias (ix2 (0 : Fin 1) (i 1))) floor0
  rw [add_right_comm]

/-- `dual` at an entry depends on row (y 0) of the matrix operands, column (y 1) of the weights and entry (0, y 1) of the
    bias row: two sets of operands that agree there give the same entry. -/
theorem dual_apply_congr {m n k1 k2 d : ℕ} (ab : Mat m k1) (bb : Mat m k2) (wa' : Mat k1 d) (wb' : Mat k2 d) (bias' : Mat 1 d)
    (a : Mat n k1) (b : Mat n k2) (wa : Mat k1 d) (wb : Mat k2 d) (bias : Mat 1 d)
    (y : (⟨2, ![m, d]⟩ : Shape).Idx) (i : (⟨2, ![n, d]⟩ : Shape).Idx)
    (ha : ∀ j : Fin k1, ab (ix2 (y 0) j) = a (ix2 (i 0) j)) (hb : ∀ j : Fin k2, bb (ix2 (y 0) j) = b (ix2 (i 0) j))
    (hwa : ∀ j : Fin k1, wa' (ix2 j (y 1)) = wa (ix2 j (i 1))) (hwb : ∀ j : Fin k2, wb' (ix2 j (y 1)) = wb (ix2 j (i 1)))
    (hbias : bias' (ix2 (0 : Fin 1) (y 1)) = bias (ix2 (0 : Fin 1) (i 1))) :
    dual ab bb wa' wb' bias' y = dual a b wa wb bias i := by
  show max ((∑ j : Fin k1, ab (ix2 (y 0) j) * wa' (ix2 j (y 1)) + ∑ j : Fin k2, bb (ix2 (y 0) j) * wb' (ix2 j (y 1)))
        + bias' (ix2 (0 : Fin 1) (y 1))) floor0
    = max ((∑ j : Fin k1, a (ix2 (i 0) j) * wa (ix2 j (i 1)) + ∑ j : Fin k2, b (ix2 (i 0) j) * wb (ix2 j (i 1)))
        + bias (ix2 (0 : Fin 1) (i 1))) floor0
  simp only [ha, hb, hwa, hwb, hbias]

/-- `lin` at an entry depends on row (y 0) of the matrix operand, column (y 1) of the weights and entry (0, y 1) of the
    bias row. -/
theorem lin_apply_congr {m n k d : ℕ} (ab : Mat m k) (w' : Mat k d) (bias' : Mat 1 d)
    (a : Mat n k) (w : Mat k d) (bias : Mat 1 d)
    (y : (⟨2, ![m, d]⟩ : Shape).Idx) (i : (⟨2, ![n, d]⟩ : Shape).Idx)
    (ha : ∀ j : Fin k, ab (ix2 (y 0) j) = a (ix2 (i 0) j))
    (hw : ∀ j : Fin k, w' (ix2 j (y 1)) = w (ix2 j (i 1)))
    (hbias : bias' (ix2 (0 : Fin 1) (y 1)) = bias (ix2 (0 : Fin 1) (i 1))) :
    lin ab w' bias' y = lin a w bias i := by
  show (∑ j : Fin k, ab (ix2 (y 0) j) * w' (ix2 j (y 1))) + bias' (ix2 (0 : Fin 1) (y 1))
    = (∑ j : Fin k, a (ix2 (i 0) j) * w (ix2 j (i 1))) + bias (ix2 (0 : Fin 1) (i 1))
  simp only [ha, hw, hbias]

/-- The entrywise float sum of two matrices of extended reals is their entrywise sum. -/
theorem addf_eq_madd {n k : ℕ} (x y : FVec Ideal ⟨2, ![n, k]⟩ .f32) : addf x y = madd x y := rfl

/-! ## The machine's two spellings -/

/-- A matrix unit's `dual`: two products into zero accumulators, summed, the bias row spread and added, the maximum
    against a splat of the zero word.  Whatever the operands' float formats. -/
theorem unit_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (hs : (⟨2, ![1, d]⟩ : Shape).Broadcasts ⟨2, ![n, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (bias : FVec Ideal ⟨2, ![1, d]⟩ .f32) :
    maximumf (addf (addf (matmul Da none a wa (constant ⟨2, ![n, d]⟩ .f32 0x00000000#32))
            (matmul Db none b wb (constant ⟨2, ![n, d]⟩ .f32 0x00000000#32)))
          (broadcastTo ⟨2, ![n, d]⟩ bias hs))
        (broadcast ⟨2, ![n, d]⟩ (Scalar.ofBits (F := Ideal) .f32 0x00000000#32))
      = dual a b wa wb bias := by
  rw [matmul_eq_mm Da ha1 ha2 ha3 ha4 ha5 ha6 none a wa, matmul_eq_mm Db hb1 hb2 hb3 hb4 hb5 hb6 none b wb,
    addf_spread_eq_addRow hs, addf_eq_madd, maximumf_zero_eq_relu]
  rfl

/-- A host program's `dual`: a contraction, the bias vector placed as a row, spread over the rows and added, the second
    contraction added, the maximum against the zero word spread from a scalar.  The bias row is the vector reshaped to
    one row. -/
theorem host_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (v : FVec Ideal ⟨1, ![d]⟩ .f32) :
    maximumf (addf (addf (Host.dotGeneral Da none a wa)
            (broadcastInDim ⟨2, ![n, d]⟩ ![0, 1] h2 (broadcastInDim ⟨2, ![1, d]⟩ ![1] h1 v)))
          (Host.dotGeneral Db none b wb))
        (broadcastInDim ⟨2, ![n, d]⟩ ![] h0 (constant (F := Ideal) ⟨0, ![]⟩ .f32 0x00000000#32))
      = dual a b wa wb (shapeCast ⟨2, ![1, d]⟩ v hc) := by
  rw [dotGeneral_eq_mm Da ha1 ha2 ha3 ha4 ha5 ha6 none a wa, dotGeneral_eq_mm Db hb1 hb2 hb3 hb4 hb5 hb6 none b wb,
    addf_hostBias_eq_addRow h1 h2 hc, addf_eq_madd, maximumf_hostZero_eq_relu h0]
  exact biasBetween_eq_dual a b wa wb (shapeCast ⟨2, ![1, d]⟩ v hc)

/-- A matrix unit's `lin`: the product into the zero accumulator, the bias row spread over the rows and added. -/
theorem unit_lin {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hs : (⟨2, ![1, d]⟩ : Shape).Broadcasts ⟨2, ![n, d]⟩)
    (a : FVec Ideal ⟨2, ![n, k]⟩ φ₁) (w : FVec Ideal ⟨2, ![k, d]⟩ φ₂) (bias : FVec Ideal ⟨2, ![1, d]⟩ .f32) :
    addf (matmul D none a w (constant ⟨2, ![n, d]⟩ .f32 0x00000000#32)) (broadcastTo ⟨2, ![n, d]⟩ bias hs)
      = lin a w bias := by
  rw [matmul_eq_mm D hlc hrc hln hrn hlb hrb none a w, addf_spread_eq_addRow hs]
  rfl

/-- A host program's `lin`: the contraction, the bias vector placed as a row, spread over the rows and added. -/
theorem host_lin {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (hc : (⟨1, ![d]⟩ : Shape).ShapeCasts ⟨2, ![1, d]⟩)
    (a : FVec Ideal ⟨2, ![n, k]⟩ φ₁) (w : FVec Ideal ⟨2, ![k, d]⟩ φ₂) (v : FVec Ideal ⟨1, ![d]⟩ .f32) :
    addf (Host.dotGeneral D none a w)
        (broadcastInDim ⟨2, ![n, d]⟩ ![0, 1] h2 (broadcastInDim ⟨2, ![1, d]⟩ ![1] h1 v))
      = lin a w (shapeCast ⟨2, ![1, d]⟩ v hc) := by
  rw [dotGeneral_eq_mm D hlc hrc hln hrn hlb hrb none a w, addf_hostBias_eq_addRow h1 h2 hc]
  rfl

end Cert.LibDualLayer

end
-- ==== Proof.LibLayer.lean ====
/-
  One layer of a perceptron on matrices of extended reals, and the machine's two spellings of it.

  A layer takes an [n, k] matrix a, a [k, d] weight matrix w and a one-row bias matrix b to the [n, d] matrix whose entry
  (p, o) is  max(sum over j of a(p, j) * w(j, o) + b(0, o), 0)  — the zero being what the zero word of the 32-bit float
  format denotes.  Row p of the result depends on row p of a only (`layer_row`), so a layer of a block of rows is the
  same rows of the layer of the whole matrix; nothing is distributed or cancelled, so this holds at the infinities.

  A matrix unit spells a layer as a product into the zero accumulator, the bias row spread over the rows and added, and
  the maximum against a splat of the zero word (`unit_layer`).  A host program spells it as a contraction with the same
  dimension numbers, the bias VECTOR placed as a row, spread over the rows and added, and the maximum against the zero
  word spread from a scalar (`host_layer`): the same layer, its bias row the vector reshaped to one row.  Both hold for
  operands of any float formats and any extents.
-/
import Idealize.ShloMosaic.PureOps.Ideal
import Idealize.ShloMosaic.Lib.ValueIdx
import Idealize.ShloMosaic.Lib.Pipeline.Value
import proofs.«179896_j37967510896698_1_alg».proof.Proof.LibRowStages

noncomputable section

namespace Cert.LibLayer

open Idealize.ShloMosaic Idealize.ShloMosaic.ValueIdx Cert.LibRowStages

/-- One layer: the product with the weights, the bias row added to every row, the floor at zero. -/
def layer {n k d : ℕ} (a : Mat n k) (w : Mat k d) (b : Mat 1 d) : Mat n d := relu (addRow (mm a w) b)

/-- A layer works one row at a time. -/
theorem layer_row {m n k d : ℕ} {ab : Mat m k} {q : Fin m} {a : Mat n k} {p : Fin n} (h : RowEq ab q a p)
    (w : Mat k d) (b : Mat 1 d) : RowEq (layer ab w b) q (layer a w b) p :=
  relu_row (addRow_row (mm_row h w) b)

/-! ## The machine's two spellings -/

/-- A matrix unit's layer: the product into the zero accumulator, the bias row spread over the rows and added, the
    maximum against a splat of the zero word.  Whatever the operands' float formats. -/
theorem unit_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hb : (⟨2, ![1, d]⟩ : Shape).Broadcasts ⟨2, ![n, d]⟩)
    (l : FVec Ideal ⟨2, ![n, k]⟩ φ₁) (w : FVec Ideal ⟨2, ![k, d]⟩ φ₂) (b : FVec Ideal ⟨2, ![1, d]⟩ .f32) :
    maximumf (addf (matmul D none l w (constant ⟨2, ![n, d]⟩ .f32 0x00000000#32)) (broadcastTo ⟨2, ![n, d]⟩ b hb))
        (broadcast ⟨2, ![n, d]⟩ (Scalar.ofBits (F := Ideal) .f32 0x00000000#32))
      = layer l w b := by
  rw [matmul_eq_mm D hlc hrc hln hrn hlb hrb none l w, addf_spread_eq_addRow hb, maximumf_zero_eq_relu]
  rfl

/-- A host program's layer: the contraction with the same dimension numbers, the bias vector placed as a row, spread
    over the rows and added, the maximum against the zero word spread from a scalar.  The bias row is the vector
    reshaped to one row. -/
theorem host_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (l : FVec Ideal ⟨2, ![n, k]⟩ φ₁) (w : FVec Ideal ⟨2, ![k, d]⟩ φ₂) (v : FVec Ideal ⟨1, ![d]⟩ .f32) :
    maximumf (addf (Host.dotGeneral D none l w)
          (broadcastInDim ⟨2, ![n, d]⟩ ![0, 1] h2 (broadcastInDim ⟨2, ![1, d]⟩ ![1] h1 v)))
        (broadcastInDim ⟨2, ![n, d]⟩ ![] h0 (constant (F := Ideal) ⟨0, ![]⟩ .f32 0x00000000#32))
      = layer l w (shapeCast ⟨2, ![1, d]⟩ v hc) := by
  rw [dotGeneral_eq_mm D hlc hrc hln hrn hlb hrb none l w, addf_hostBias_eq_addRow h1 h2 hc, maximumf_hostZero_eq_relu h0]
  rfl

end Cert.LibLayer

end
-- ==== Proof.KernelStages.lean ====
/-
  What each of the five kernel bodies leaves in its output block, as a stage on matrices of extended reals.

  Every body loads its whole blocks, computes, and stores one whole block.  On the extended reals a change of float
  format is the identity, so: the projection body leaves `lin x w b` (the product plus the bias row); each of the three
  combining bodies leaves `dual mean own wl wr b` (the sum of the two products, the bias row added, the floor at zero);
  the head's body leaves `lin (layer x wl1 bl1) wl2 bl2`.
-/
import proofs.«179896_j37967510896698_1_alg».proof.Proof.Gen.KernelIdeal.Frame
import proofs.«179896_j37967510896698_1_alg».proof.Proof.LibDualLayer
import proofs.«179896_j37967510896698_1_alg».proof.Proof.LibLayer
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe
open Cert.LibRowStages Cert.LibDualLayer Cert.LibLayer

/-- The offset of a whole block's rectangle is zero on both axes. -/
theorem hz : (![0, 0] : Fin 2 → Nat) = fun _ => 0 := funext fun a => by fin_cases a <;> rfl

/-- The projection body: the product of the row block with the weights, plus the bias row. -/
theorem out0_eq (x0 : Vec Ideal S5000x128 .f32) (x1 : Vec Ideal S128x64 .f32) (x2 : Vec Ideal S1x64 .f32) :
    out0_3 (F := Ideal) x0 x1 x2 = lin x0 x1 x2 := by
  unfold out0_3
  rw [View.canon_unit_zero hz]
  simp only [View.ld_unit_zero (S := S5000x128) hz, View.ld_unit_zero (S := S128x64) hz, View.ld_unit_zero (S := S1x64) hz]
  unfold k0_pay1
  dsimp only
  rw [shapeCast_self]
  exact unit_lin dot_S5000x128_S128x64_S5000x64_1_0_0_1_n_n rfl rfl rfl rfl rfl rfl broadcasts_S1x64_S5000x64
    (truncf .bf16 x0 bitsLt_bf16_f32) (truncf .bf16 x1 bitsLt_bf16_f32) x2

/-- The first combining body. -/
theorem out1_eq (x0 x1 : Vec Ideal S5000x64 .f32) (x2 : Vec Ideal S64x64 .f32) (x3 : Vec Ideal S1x64 .f32)
    (x4 : Vec Ideal S64x64 .f32) : out1_5 (F := Ideal) x0 x1 x2 x3 x4 = dual x0 x1 x2 x4 x3 := by
  unfold out1_5
  rw [View.canon_unit_zero hz]
  simp only [View.ld_unit_zero (S := S5000x64) hz, View.ld_unit_zero (S := S64x64) hz, View.ld_unit_zero (S := S1x64) hz]
  unfold k1_pay1
  dsimp only
  simp only [shapeCast_self]
  exact unit_dual dot_S5000x64_S64x64_S5000x64_1_0_0_1_n_n dot_S5000x64_S64x64_S5000x64_1_0_0_1_n_n
    rfl rfl rfl rfl rfl rfl rfl rfl rfl rfl rfl rfl broadcasts_S1x64_S5000x64
    (truncf .bf16 x0 bitsLt_bf16_f32) (truncf .bf16 x2 bitsLt_bf16_f32)
    (truncf .bf16 x1 bitsLt_bf16_f32) (truncf .bf16 x4 bitsLt_bf16_f32) x3

/-- The second combining body. -/
theorem out2_eq (x0 x1 : Vec Ideal S5000x64 .f32) (x2 : Vec Ideal S64x64 .f32) (x3 : Vec Ideal S1x64 .f32)
    (x4 : Vec Ideal S64x64 .f32) : out2_5 (F := Ideal) x0 x1 x2 x3 x4 = dual x0 x1 x2 x4 x3 := by
  unfold out2_5
  rw [View.canon_unit_zero hz]
  simp only [View.ld_unit_zero (S := S5000x64) hz, View.ld_unit_zero (S := S64x64) hz, View.ld_unit_zero (S := S1x64) hz]
  unfold k2_pay1
  dsimp only
  simp only [shapeCast_self]
  exact unit_dual dot_S5000x64_S64x64_S5000x64_1_0_0_1_n_n dot_S5000x64_S64x64_S5000x64_1_0_0_1_n_n
    rfl rfl rfl rfl rfl rfl rfl rfl rfl rfl rfl rfl broadcasts_S1x64_S5000x64
    (truncf .bf16 x0 bitsLt_bf16_f32) (truncf .bf16 x2 bitsLt_bf16_f32)
    (truncf .bf16 x1 bitsLt_bf16_f32) (truncf .bf16 x4 bitsLt_bf16_f32) x3

/-- The third combining body. -/
theorem out3_eq (x0 x1 : Vec Ideal S5000x64 .f32) (x2 : Vec Ideal S64x64 .f32) (x3 : Vec Ideal S1x64 .f32)
    (x4 : Vec Ideal S64x64 .f32) : out3_5 (F := Ideal) x0 x1 x2 x3 x4 = dual x0 x1 x2 x4 x3 := by
  unfold out3_5
  rw [View.canon_unit_zero hz]
  simp only [View.ld_unit_zero (S := S5000x64) hz, View.ld_unit_zero (S := S64x64) hz, View.ld_unit_zero (S := S1x64) hz]
  unfold k3_pay1
  dsimp only
  simp only [shapeCast_self]
  exact unit_dual dot_S5000x64_S64x64_S5000x64_1_0_0_1_n_n dot_S5000x64_S64x64_S5000x64_1_0_0_1_n_n
    rfl rfl rfl rfl rfl rfl rfl rfl rfl rfl rfl rfl broadcasts_S1x64_S5000x64
    (truncf .bf16 x0 bitsLt_bf16_f32) (truncf .bf16 x2 bitsLt_bf16_f32)
    (truncf .bf16 x1 bitsLt_bf16_f32) (truncf .bf16 x4 bitsLt_bf16_f32) x3

/-- The head's body: a floored layer, then a product with a one-column weight matrix plus a one-entry bias. -/
theorem out4_eq (x0 : Vec Ideal S5000x64 .f32) (x1 : Vec Ideal S64x64 .f32) (x2 : Vec Ideal S1x64 .f32)
    (x3 : Vec Ideal S64x1 .f32) (x4 : Vec Ideal S1x1 .f32) :
    out4_5 (F := Ideal) x0 x1 x2 x3 x4 = lin (layer x0 x1 x2) x3 x4 := by
  unfold out4_5
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  unfold k4_pay1
  dsimp only
  simp only [shapeCast_self]
  refine (unit_lin dot_S5000x64_S64x1_S5000x1_1_0_0_1_n_n rfl rfl rfl rfl rfl rfl broadcasts_S1x1_S5000x1 _
    (truncf .bf16 x3 bitsLt_bf16_f32) x4).trans ?_
  exact congrArg (fun h => lin h x3 x4)
    (unit_layer dot_S5000x64_S64x64_S5000x64_1_0_0_1_n_n rfl rfl rfl rfl rfl rfl broadcasts_S1x64_S5000x64
      (truncf .bf16 x0 bitsLt_bf16_f32) (truncf .bf16 x1 bitsLt_bf16_f32) x2)

end Cert.KernelIdeal.Stages

end
-- ==== Proof.KernelRegions.lean ====
/-
  Each kernel region's output array after the region, as one stage of the arrays the region finds.

  A region walks its row-blocked operands in blocks of 5000 rows: at grid point t the row-blocked windows hold rows
  5000·t … 5000·t + 4999 of their arrays, the weight and bias windows hold their whole arrays, and the output window's
  block is written back to the same rows of the output array.  The stage a body computes works one row at a time, so
  the block it writes is those rows of the stage of the whole arrays; the blocks tile the output array, so after the
  region the output array is the stage of the whole arrays.  All of this holds for any contents `V` the region finds.
-/
import proofs.«179896_j37967510896698_1_alg».proof.Proof.Gen.KernelIdeal.Frame
import proofs.«179896_j37967510896698_1_alg».proof.Proof.KernelStages
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibRowStages Cert.LibDualLayer Cert.LibLayer
open scoped BigOperators

variable (V : (c : Dev nD) → (b : Ref sig .tc) → Buf (Elt Ideal) ((c : Thread nD τ).loc b))

/-! ## Region 0: the projection of the 100000-row side -/

/-- An entry of a floored layer depends on one row of the matrix operand, one column of the weights and one entry of
    the bias row: operands that agree there give the same entry. -/
theorem layer_apply_congr {m n k d : ℕ} (ab : Mat m k) (w' : Mat k d) (b' : Mat 1 d) (a : Mat n k) (w : Mat k d) (b : Mat 1 d)
    (y : (⟨2, ![m, d]⟩ : Shape).Idx) (i : (⟨2, ![n, d]⟩ : Shape).Idx)
    (ha : ∀ j : Fin k, ab (ix2 (y 0) j) = a (ix2 (i 0) j)) (hw : ∀ j : Fin k, w' (ix2 j (y 1)) = w (ix2 j (i 1)))
    (hb : b' (ix2 (0 : Fin 1) (y 1)) = b (ix2 (0 : Fin 1) (i 1))) : layer ab w' b' y = layer a w b i := by
  show max ((∑ j : Fin k, ab (ix2 (y 0) j) * w' (ix2 j (y 1))) + b' (ix2 (0 : Fin 1) (y 1))) floor0
    = max ((∑ j : Fin k, a (ix2 (i 0) j) * w (ix2 j (i 1))) + b (ix2 (0 : Fin 1) (i 1))) floor0
  simp only [ha, hw, hb]

/-- The printed index maps, decided over the 20 grid points. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0
    ∧ win0_3.index t (0 : Fin 2) ≤ 19 :=
  (by decide +kernel : ∀ t : Fin grid0.N, _)

/-- Every block of rows is some point's. -/
theorem idx_onto0 : ∀ q : Fin 20, ∃ t : Fin cfg0.N, win0_3.index t = ![q.val, 0] :=
  (by decide +kernel : ∀ q : Fin 20, ∃ t : Fin grid0.N, win0_3.index t = ![q.val, 0])

/-- What point t writes back is block t of the projection of the whole arrays. -/
theorem flushed0_eq (c : Dev nD) (t : Fin cfg0.N) :
    (dat0 V c).flushed 3 t = ((cfg0.win 3).blk t).view.read (Elt Ideal)
      (lin (V c main_arg0 : S100000x128.Idx → EReal) (V c main_arg4 : S128x64.Idx → EReal) (V c main_v0 : S1x64.Idx → EReal)) := by
  show (cfg0.win 3).cut (grid0.coords t) ((dat0 V c).after 3 t) = _
  rw [after0_3]
  obtain ⟨e0, e1, e2, e3, e4, e5, e6, e7⟩ := idx_facts0 t
  funext j
  refine (congrFun (Stages.out0_eq (iblk0 V c 0 t) (iblk0 V c 1 t) (iblk0 V c 2 t)) j).trans ?_
  show lin (iblk0 V c 0 t) (iblk0 V c 1 t) (iblk0 V c 2 t) j
    = lin (V c main_arg0 : S100000x128.Idx → EReal) (V c main_arg4 : S128x64.Idx → EReal) (V c main_v0 : S1x64.Idx → EReal)
        (((cfg0.win 3).blk t).view.emb j)
  refine lin_apply_congr _ _ _ _ _ _ j (((cfg0.win 3).blk t).view.emb j) ?_ ?_ ?_
  · intro q
    show (V c main_arg0 : S100000x128.Idx → EReal) (((cfg0.win 0).blk t).view.emb (ix2 (j 0) q))
      = (V c main_arg0 : S100000x128.Idx → EReal) (ix2 ((((cfg0.win 3).blk t).view.emb j) 0) q)
    refine congrArg _ ?_
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * q.val = q.val; omega
  · intro q
    show (V c main_arg4 : S128x64.Idx → EReal) (((cfg0.win 1).blk t).view.emb (ix2 q (j 1)))
      = (V c main_arg4 : S128x64.Idx → EReal) (ix2 q ((((cfg0.win 3).blk t).view.emb j) 1))
    refine congrArg _ ?_
    funext a; apply Fin.ext
    match a with
    | ⟨0, _⟩ => show win0_1.index t (0 : Fin 2) * 128 + 1 * q.val = q.val; omega
    | ⟨1, _⟩ => show win0_1.index t (1 : Fin 2) * 64 + 1 * (j 1).val = win0_3.index t (1 : Fin 2) * 64 + 1 * (j 1).val; omega
  · show (V c main_v0 : S1x64.Idx → EReal) (((cfg0.win 2).blk t).view.emb (ix2 (0 : Fin 1) (j 1)))
      = (V c main_v0 : S1x64.Idx → EReal) (ix2 (0 : Fin 1) ((((cfg0.win 3).blk t).view.emb j) 1))
    refine congrArg _ ?_
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array lies in point t's block exactly when each coordinate lies in the block's range. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v6).slice (win0_3.rect t)).set ↔ _
  rw [View.set_slice_whole, Rect.mem_set_unit]
  exact Iff.rfl

/-- The blocks tile the output array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the region its output array is the projection of the whole arrays the region found. -/
theorem final0 (c : Dev nD) : (dat0 V c).arrAt 3 cfg0.N
    = lin (V c main_arg0 : S100000x128.Idx → EReal) (V c main_arg4 : S128x64.Idx → EReal) (V c main_v0 : S1x64.Idx → EReal) :=
  (dat0 V c).arrAt_eq_of_cover 3 _ (fun t _ => flushed0_eq V c t) cover0

/-! ## Region 1: a combining layer onto the 150000-row side -/

/-- The printed index maps, decided over the 30 grid points: the two row-blocked inputs move with the output, the
    weights and the bias stay at block 0. -/
theorem idx_facts1 : ∀ t : Fin cfg1.N, win1_0.index t (0 : Fin 2) = win1_5.index t (0 : Fin 2)
    ∧ win1_0.index t (1 : Fin 2) = 0 ∧ win1_1.index t (0 : Fin 2) = win1_5.index t (0 : Fin 2)
    ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (0 : Fin 2) = 0
    ∧ win1_4.index t (1 : Fin 2) = 0 ∧ win1_5.index t (1 : Fin 2) = 0 ∧ win1_5.index t (0 : Fin 2) ≤ 29 :=
  (by decide +kernel : ∀ t : Fin grid1.N, _)

/-- Every block of rows is some point's. -/
theorem idx_onto1 : ∀ q : Fin 30, ∃ t : Fin cfg1.N, win1_5.index t = ![q.val, 0] :=
  (by decide +kernel : ∀ q : Fin 30, ∃ t : Fin grid1.N, win1_5.index t = ![q.val, 0])

/-- What point t writes back is block t of the layer of the whole arrays: row r of the block is row 5000·t + r of the
    row-blocked arrays, and the weights and the bias row are whole. -/
theorem flushed1_eq (c : Dev nD) (t : Fin cfg1.N) :
    (dat1 V c).flushed 5 t = ((cfg1.win 5).blk t).view.read (Elt Ideal)
      (dual (V c main_v25 : S150000x64.Idx → EReal) (V c main_arg3 : S150000x64.Idx → EReal)
        (V c main_arg6 : S64x64.Idx → EReal) (V c main_arg8 : S64x64.Idx → EReal) (V c main_v1 : S1x64.Idx → EReal)) := by
  show (cfg1.win 5).cut (grid1.coords t) ((dat1 V c).after 5 t) = _
  rw [after1_5]
  obtain ⟨e0, e1, e2, e3, e4, e5, e6, e7, e8, e9, e10, e11⟩ := idx_facts1 t
  funext j
  refine (congrFun (Stages.out1_eq (iblk1 V c 0 t) (iblk1 V c 1 t) (iblk1 V c 2 t) (iblk1 V c 3 t) (iblk1 V c 4 t)) j).trans ?_
  show dual (iblk1 V c 0 t) (iblk1 V c 1 t) (iblk1 V c 2 t) (iblk1 V c 4 t) (iblk1 V c 3 t) j
    = dual (V c main_v25 : S150000x64.Idx → EReal) (V c main_arg3 : S150000x64.Idx → EReal) (V c main_arg6 : S64x64.Idx → EReal)
        (V c main_arg8 : S64x64.Idx → EReal) (V c main_v1 : S1x64.Idx → EReal) (((cfg1.win 5).blk t).view.emb j)
  refine dual_apply_congr _ _ _ _ _ _ _ _ _ _ j (((cfg1.win 5).blk t).view.emb j) ?_ ?_ ?_ ?_ ?_
  · intro q
    show (V c main_v25 : S150000x64.Idx → EReal) (((cfg1.win 0).blk t).view.emb (ix2 (j 0) q))
      = (V c main_v25 : S150000x64.Idx → EReal) (ix2 ((((cfg1.win 5).blk t).view.emb j) 0) q)
    refine congrArg _ ?_
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * q.val = q.val; omega
  · intro q
    show (V c main_arg3 : S150000x64.Idx → EReal) (((cfg1.win 1).blk t).view.emb (ix2 (j 0) q))
      = (V c main_arg3 : S150000x64.Idx → EReal) (ix2 ((((cfg1.win 5).blk t).view.emb j) 0) q)
    refine congrArg _ ?_
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * q.val = q.val; omega
  · intro q
    show (V c main_arg6 : S64x64.Idx → EReal) (((cfg1.win 2).blk t).view.emb (ix2 q (j 1)))
      = (V c main_arg6 : S64x64.Idx → EReal) (ix2 q ((((cfg1.win 5).blk t).view.emb j) 1))
    refine congrArg _ ?_
    funext a; apply Fin.ext
    match a with
    | ⟨0, _⟩ => show win1_2.index t (0 : Fin 2) * 64 + 1 * q.val = q.val; omega
    | ⟨1, _⟩ => show win1_2.index t (1 : Fin 2) * 64 + 1 * (j 1).val = win1_5.index t (1 : Fin 2) * 64 + 1 * (j 1).val; omega
  · intro q
    show (V c main_arg8 : S64x64.Idx → EReal) (((cfg1.win 4).blk t).view.emb (ix2 q (j 1)))
      = (V c main_arg8 : S64x64.Idx → EReal) (ix2 q ((((cfg1.win 5).blk t).view.emb j) 1))
    refine congrArg _ ?_
    funext a; apply Fin.ext
    match a with
    | ⟨0, _⟩ => show win1_4.index t (0 : Fin 2) * 64 + 1 * q.val = q.val; omega
    | ⟨1, _⟩ => show win1_4.index t (1 : Fin 2) * 64 + 1 * (j 1).val = win1_5.index t (1 : Fin 2) * 64 + 1 * (j 1).val; omega
  · show (V c main_v1 : S1x64.Idx → EReal) (((cfg1.win 3).blk t).view.emb (ix2 (0 : Fin 1) (j 1)))
      = (V c main_v1 : S1x64.Idx → EReal) (ix2 (0 : Fin 1) ((((cfg1.win 5).blk t).view.emb j) 1))
    refine congrArg _ ?_
    funext a; apply Fin.ext
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the output array lies in point t's block exactly when each coordinate lies in the block's range. -/
theorem mem_blk1 (t : Fin cfg1.N) (i : S150000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v26).slice (win1_5.rect t)).set ↔ _
  rw [View.set_slice_whole, Rect.mem_set_unit]
  exact Iff.rfl

/-- The blocks tile the output array: row r lies in the block of point r / 5000. -/
theorem cover1 (i : S150000x64.Idx) :
    ∃ t : Fin cfg1.N, (cfg1.win 5).flush t = true ∧ i ∈ ((cfg1.win 5).blk t).view.set := by
  have hi0 : (i 0).val < 150000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the region its output array is the layer of the whole arrays the region found. -/
theorem final1 (c : Dev nD) : (dat1 V c).arrAt 5 cfg1.N
    = dual (V c main_v25 : S150000x64.Idx → EReal) (V c main_arg3 : S150000x64.Idx → EReal) (V c main_arg6 : S64x64.Idx → EReal)
        (V c main_arg8 : S64x64.Idx → EReal) (V c main_v1 : S1x64.Idx → EReal) :=
  (dat1 V c).arrAt_eq_of_cover 5 _ (fun t _ => flushed1_eq V c t) cover1

/-! ## Region 2: a combining layer onto the 100000-row side -/

/-- The printed index maps, decided over the 20 grid points: the two row-blocked inputs move with the output, the
    weights and the bias stay at block 0. -/
theorem idx_facts2 : ∀ t : Fin cfg2.N, win2_0.index t (0 : Fin 2) = win2_5.index t (0 : Fin 2)
    ∧ win2_0.index t (1 : Fin 2) = 0 ∧ win2_1.index t (0 : Fin 2) = win2_5.index t (0 : Fin 2)
    ∧ win2_1.index t (1 : Fin 2) = 0 ∧ win2_2.index t (0 : Fin 2) = 0 ∧ win2_2.index t (1 : Fin 2) = 0
    ∧ win2_3.index t (0 : Fin 2) = 0 ∧ win2_3.index t (1 : Fin 2) = 0 ∧ win2_4.index t (0 : Fin 2) = 0
    ∧ win2_4.index t (1 : Fin 2) = 0 ∧ win2_5.index t (1 : Fin 2) = 0 ∧ win2_5.index t (0 : Fin 2) ≤ 19 :=
  (by decide +kernel : ∀ t : Fin grid2.N, _)

/-- Every block of rows is some point's. -/
theorem idx_onto2 : ∀ q : Fin 20, ∃ t : Fin cfg2.N, win2_5.index t = ![q.val, 0] :=
  (by decide +kernel : ∀ q : Fin 20, ∃ t : Fin grid2.N, win2_5.index t = ![q.val, 0])

/-- What point t writes back is block t of the layer of the whole arrays: row r of the block is row 5000·t + r of the
    row-blocked arrays, and the weights and the bias row are whole. -/
theorem flushed2_eq (c : Dev nD) (t : Fin cfg2.N) :
    (dat2 V c).flushed 5 t = ((cfg2.win 5).blk t).view.read (Elt Ideal)
      (dual (V c main_v45 : S100000x64.Idx → EReal) (V c main_v6 : S100000x64.Idx → EReal)
        (V c main_arg9 : S64x64.Idx → EReal) (V c main_arg11 : S64x64.Idx → EReal) (V c main_v2 : S1x64.Idx → EReal)) := by
  show (cfg2.win 5).cut (grid2.coords t) ((dat2 V c).after 5 t) = _
  rw [after2_5]
  obtain ⟨e0, e1, e2, e3, e4, e5, e6, e7, e8, e9, e10, e11⟩ := idx_facts2 t
  funext j
  refine (congrFun (Stages.out2_eq (iblk2 V c 0 t) (iblk2 V c 1 t) (iblk2 V c 2 t) (iblk2 V c 3 t) (iblk2 V c 4 t)) j).trans ?_
  show dual (iblk2 V c 0 t) (iblk2 V c 1 t) (iblk2 V c 2 t) (iblk2 V c 4 t) (iblk2 V c 3 t) j
    = dual (V c main_v45 : S100000x64.Idx → EReal) (V c main_v6 : S100000x64.Idx → EReal) (V c main_arg9 : S64x64.Idx → EReal)
        (V c main_arg11 : S64x64.Idx → EReal) (V c main_v2 : S1x64.Idx → EReal) (((cfg2.win 5).blk t).view.emb j)
  refine dual_apply_congr _ _ _ _ _ _ _ _ _ _ j (((cfg2.win 5).blk t).view.emb j) ?_ ?_ ?_ ?_ ?_
  · intro q
    show (V c main_v45 : S100000x64.Idx → EReal) (((cfg2.win 0).blk t).view.emb (ix2 (j 0) q))
      = (V c main_v45 : S100000x64.Idx → EReal) (ix2 ((((cfg2.win 5).blk t).view.emb j) 0) q)
    refine congrArg _ ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * q.val = q.val; omega
  · intro q
    show (V c main_v6 : S100000x64.Idx → EReal) (((cfg2.win 1).blk t).view.emb (ix2 (j 0) q))
      = (V c main_v6 : S100000x64.Idx → EReal) (ix2 ((((cfg2.win 5).blk t).view.emb j) 0) q)
    refine congrArg _ ?_
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * q.val = q.val; omega
  · intro q
    show (V c main_arg9 : S64x64.Idx → EReal) (((cfg2.win 2).blk t).view.emb (ix2 q (j 1)))
      = (V c main_arg9 : S64x64.Idx → EReal) (ix2 q ((((cfg2.win 5).blk t).view.emb j) 1))
    refine congrArg _ ?_
    funext a; apply Fin.ext
    match a with
    | ⟨0, _⟩ => show win2_2.index t (0 : Fin 2) * 64 + 1 * q.val = q.val; omega
    | ⟨1, _⟩ => show win2_2.index t (1 : Fin 2) * 64 + 1 * (j 1).val = win2_5.index t (1 : Fin 2) * 64 + 1 * (j 1).val; omega
  · intro q
    show (V c main_arg11 : S64x64.Idx → EReal) (((cfg2.win 4).blk t).view.emb (ix2 q (j 1)))
      = (V c main_arg11 : S64x64.Idx → EReal) (ix2 q ((((cfg2.win 5).blk t).view.emb j) 1))
    refine congrArg _ ?_
    funext a; apply Fin.ext
    match a with
    | ⟨0, _⟩ => show win2_4.index t (0 : Fin 2) * 64 + 1 * q.val = q.val; omega
    | ⟨1, _⟩ => show win2_4.index t (1 : Fin 2) * 64 + 1 * (j 1).val = win2_5.index t (1 : Fin 2) * 64 + 1 * (j 1).val; omega
  · show (V c main_v2 : S1x64.Idx → EReal) (((cfg2.win 3).blk t).view.emb (ix2 (0 : Fin 1) (j 1)))
      = (V c main_v2 : S1x64.Idx → EReal) (ix2 (0 : Fin 1) ((((cfg2.win 5).blk t).view.emb j) 1))
    refine congrArg _ ?_
    funext a; apply Fin.ext
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega

/-- An index of the output array lies in point t's block exactly when each coordinate lies in the block's range. -/
theorem mem_blk2 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v46).slice (win2_5.rect t)).set ↔ _
  rw [View.set_slice_whole, Rect.mem_set_unit]
  exact Iff.rfl

/-- The blocks tile the output array: row r lies in the block of point r / 5000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- After the region its output array is the layer of the whole arrays the region found. -/
theorem final2 (c : Dev nD) : (dat2 V c).arrAt 5 cfg2.N
    = dual (V c main_v45 : S100000x64.Idx → EReal) (V c main_v6 : S100000x64.Idx → EReal) (V c main_arg9 : S64x64.Idx → EReal)
        (V c main_arg11 : S64x64.Idx → EReal) (V c main_v2 : S1x64.Idx → EReal) :=
  (dat2 V c).arrAt_eq_of_cover 5 _ (fun t _ => flushed2_eq V c t) cover2

/-! ## Region 3: a combining layer onto the 150000-row side -/

/-- The printed index maps, decided over the 30 grid points: the two row-blocked inputs move with the output, the
    weights and the bias stay at block 0. -/
theorem idx_facts3 : ∀ t : Fin cfg3.N, win3_0.index t (0 : Fin 2) = win3_5.index t (0 : Fin 2)
    ∧ win3_0.index t (1 : Fin 2) = 0 ∧ win3_1.index t (0 : Fin 2) = win3_5.index t (0 : Fin 2)
    ∧ win3_1.index t (1 : Fin 2) = 0 ∧ win3_2.index t (0 : Fin 2) = 0 ∧ win3_2.index t (1 : Fin 2) = 0
    ∧ win3_3.index t (0 : Fin 2) = 0 ∧ win3_3.index t (1 : Fin 2) = 0 ∧ win3_4.index t (0 : Fin 2) = 0
    ∧ win3_4.index t (1 : Fin 2) = 0 ∧ win3_5.index t (1 : Fin 2) = 0 ∧ win3_5.index t (0 : Fin 2) ≤ 29 :=
  (by decide +kernel : ∀ t : Fin grid3.N, _)

/-- Every block of rows is some point's. -/
theorem idx_onto3 : ∀ q : Fin 30, ∃ t : Fin cfg3.N, win3_5.index t = ![q.val, 0] :=
  (by decide +kernel : ∀ q : Fin 30, ∃ t : Fin grid3.N, win3_5.index t = ![q.val, 0])

/-- What point t writes back is block t of the layer of the whole arrays: row r of the block is row 5000·t + r of the
    row-blocked arrays, and the weights and the bias row are whole. -/
theorem flushed3_eq (c : Dev nD) (t : Fin cfg3.N) :
    (dat3 V c).flushed 5 t = ((cfg3.win 5).blk t).view.read (Elt Ideal)
      (dual (V c main_v65 : S150000x64.Idx → EReal) (V c main_v26 : S150000x64.Idx → EReal)
        (V c main_arg12 : S64x64.Idx → EReal) (V c main_arg14 : S64x64.Idx → EReal) (V c main_v3 : S1x64.Idx → EReal)) := by
  show (cfg3.win 5).cut (grid3.coords t) ((dat3 V c).after 5 t) = _
  rw [after3_5]
  obtain ⟨e0, e1, e2, e3, e4, e5, e6, e7, e8, e9, e10, e11⟩ := idx_facts3 t
  funext j
  refine (congrFun (Stages.out3_eq (iblk3 V c 0 t) (iblk3 V c 1 t) (iblk3 V c 2 t) (iblk3 V c 3 t) (iblk3 V c 4 t)) j).trans ?_
  show dual (iblk3 V c 0 t) (iblk3 V c 1 t) (iblk3 V c 2 t) (iblk3 V c 4 t) (iblk3 V c 3 t) j
    = dual (V c main_v65 : S150000x64.Idx → EReal) (V c main_v26 : S150000x64.Idx → EReal) (V c main_arg12 : S64x64.Idx → EReal)
        (V c main_arg14 : S64x64.Idx → EReal) (V c main_v3 : S1x64.Idx → EReal) (((cfg3.win 5).blk t).view.emb j)
  refine dual_apply_congr _ _ _ _ _ _ _ _ _ _ j (((cfg3.win 5).blk t).view.emb j) ?_ ?_ ?_ ?_ ?_
  · intro q
    show (V c main_v65 : S150000x64.Idx → EReal) (((cfg3.win 0).blk t).view.emb (ix2 (j 0) q))
      = (V c main_v65 : S150000x64.Idx → EReal) (ix2 ((((cfg3.win 5).blk t).view.emb j) 0) q)
    refine congrArg _ ?_
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 64 + 1 * q.val = q.val; omega
  · intro q
    show (V c main_v26 : S150000x64.Idx → EReal) (((cfg3.win 1).blk t).view.emb (ix2 (j 0) q))
      = (V c main_v26 : S150000x64.Idx → EReal) (ix2 ((((cfg3.win 5).blk t).view.emb j) 0) q)
    refine congrArg _ ?_
    funext a; apply Fin.ext
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 64 + 1 * q.val = q.val; omega
  · intro q
    show (V c main_arg12 : S64x64.Idx → EReal) (((cfg3.win 2).blk t).view.emb (ix2 q (j 1)))
      = (V c main_arg12 : S64x64.Idx → EReal) (ix2 q ((((cfg3.win 5).blk t).view.emb j) 1))
    refine congrArg _ ?_
    funext a; apply Fin.ext
    match a with
    | ⟨0, _⟩ => show win3_2.index t (0 : Fin 2) * 64 + 1 * q.val = q.val; omega
    | ⟨1, _⟩ => show win3_2.index t (1 : Fin 2) * 64 + 1 * (j 1).val = win3_5.index t (1 : Fin 2) * 64 + 1 * (j 1).val; omega
  · intro q
    show (V c main_arg14 : S64x64.Idx → EReal) (((cfg3.win 4).blk t).view.emb (ix2 q (j 1)))
      = (V c main_arg14 : S64x64.Idx → EReal) (ix2 q ((((cfg3.win 5).blk t).view.emb j) 1))
    refine congrArg _ ?_
    funext a; apply Fin.ext
    match a with
    | ⟨0, _⟩ => show win3_4.index t (0 : Fin 2) * 64 + 1 * q.val = q.val; omega
    | ⟨1, _⟩ => show win3_4.index t (1 : Fin 2) * 64 + 1 * (j 1).val = win3_5.index t (1 : Fin 2) * 64 + 1 * (j 1).val; omega
  · show (V c main_v3 : S1x64.Idx → EReal) (((cfg3.win 3).blk t).view.emb (ix2 (0 : Fin 1) (j 1)))
      = (V c main_v3 : S1x64.Idx → EReal) (ix2 (0 : Fin 1) ((((cfg3.win 5).blk t).view.emb j) 1))
    refine congrArg _ ?_
    funext a; apply Fin.ext
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega

/-- An index of the output array lies in point t's block exactly when each coordinate lies in the block's range. -/
theorem mem_blk3 (t : Fin cfg3.N) (i : S150000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v66).slice (win3_5.rect t)).set ↔ _
  rw [View.set_slice_whole, Rect.mem_set_unit]
  exact Iff.rfl

/-- The blocks tile the output array: row r lies in the block of point r / 5000. -/
theorem cover3 (i : S150000x64.Idx) :
    ∃ t : Fin cfg3.N, (cfg3.win 5).flush t = true ∧ i ∈ ((cfg3.win 5).blk t).view.set := by
  have hi0 : (i 0).val < 150000 := (i 0).isLt
  have hi1 : (i 1).val < 64 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- After the region its output array is the layer of the whole arrays the region found. -/
theorem final3 (c : Dev nD) : (dat3 V c).arrAt 5 cfg3.N
    = dual (V c main_v65 : S150000x64.Idx → EReal) (V c main_v26 : S150000x64.Idx → EReal) (V c main_arg12 : S64x64.Idx → EReal)
        (V c main_arg14 : S64x64.Idx → EReal) (V c main_v3 : S1x64.Idx → EReal) :=
  (dat3 V c).arrAt_eq_of_cover 5 _ (fun t _ => flushed3_eq V c t) cover3

/-! ## Region 4: the two-stage head on the 150000-row side -/

/-- The printed index maps, decided over the 30 grid points. -/
theorem idx_facts4 : ∀ t : Fin cfg4.N, win4_0.index t (0 : Fin 2) = win4_5.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0 ∧ win4_3.index t (0 : Fin 2) = 0
    ∧ win4_3.index t (1 : Fin 2) = 0 ∧ win4_4.index t (0 : Fin 2) = 0 ∧ win4_4.index t (1 : Fin 2) = 0
    ∧ win4_5.index t (1 : Fin 2) = 0 ∧ win4_5.index t (0 : Fin 2) ≤ 29 :=
  (by decide +kernel : ∀ t : Fin grid4.N, _)

/-- Every block of rows is some point's. -/
theorem idx_onto4 : ∀ q : Fin 30, ∃ t : Fin cfg4.N, win4_5.index t = ![q.val, 0] :=
  (by decide +kernel : ∀ q : Fin 30, ∃ t : Fin grid4.N, win4_5.index t = ![q.val, 0])

/-- What point t writes back is block t of the head of the whole arrays. -/
theorem flushed4_eq (c : Dev nD) (t : Fin cfg4.N) :
    (dat4 V c).flushed 5 t = ((cfg4.win 5).blk t).view.read (Elt Ideal)
      (lin (layer (V c main_v66 : S150000x64.Idx → EReal) (V c main_arg18 : S64x64.Idx → EReal) (V c main_v4 : S1x64.Idx → EReal))
        (V c main_arg20 : S64x1.Idx → EReal) (V c main_v5 : S1x1.Idx → EReal)) := by
  show (cfg4.win 5).cut (grid4.coords t) ((dat4 V c).after 5 t) = _
  rw [after4_5]
  obtain ⟨e0, e1, e2, e3, e4, e5, e6, e7, e8, e9, e10, e11⟩ := idx_facts4 t
  funext j
  refine (congrFun (Stages.out4_eq (iblk4 V c 0 t) (iblk4 V c 1 t) (iblk4 V c 2 t) (iblk4 V c 3 t) (iblk4 V c 4 t)) j).trans ?_
  show lin (layer (iblk4 V c 0 t) (iblk4 V c 1 t) (iblk4 V c 2 t)) (iblk4 V c 3 t) (iblk4 V c 4 t) j
    = lin (layer (V c main_v66 : S150000x64.Idx → EReal) (V c main_arg18 : S64x64.Idx → EReal) (V c main_v4 : S1x64.Idx → EReal))
        (V c main_arg20 : S64x1.Idx → EReal) (V c main_v5 : S1x1.Idx → EReal) (((cfg4.win 5).blk t).view.emb j)
  refine lin_apply_congr _ _ _ _ _ _ j (((cfg4.win 5).blk t).view.emb j) ?_ ?_ ?_
  · intro q
    refine layer_apply_congr _ _ _ _ _ _ (ix2 (j 0) q) (ix2 ((((cfg4.win 5).blk t).view.emb j) 0) q) ?_ ?_ ?_
    · intro r
      show (V c main_v66 : S150000x64.Idx → EReal) (((cfg4.win 0).blk t).view.emb (ix2 (j 0) r))
        = (V c main_v66 : S150000x64.Idx → EReal) (ix2 ((((cfg4.win 5).blk t).view.emb j) 0) r)
      refine congrArg _ ?_
      funext a; apply Fin.ext
      match a with
      | ⟨0, _⟩ => show win4_0.index t (0 : Fin 2) * 5000 + 1 * (j 0).val = win4_5.index t (0 : Fin 2) * 5000 + 1 * (j 0).val; omega
      | ⟨1, _⟩ => show win4_0.index t (1 : Fin 2) * 64 + 1 * r.val = r.val; omega
    · intro r
      show (V c main_arg18 : S64x64.Idx → EReal) (((cfg4.win 1).blk t).view.emb (ix2 r q))
        = (V c main_arg18 : S64x64.Idx → EReal) (ix2 r q)
      refine congrArg _ ?_
      funext a; apply Fin.ext
      match a with
      | ⟨0, _⟩ => show win4_1.index t (0 : Fin 2) * 64 + 1 * r.val = r.val; omega
      | ⟨1, _⟩ => show win4_1.index t (1 : Fin 2) * 64 + 1 * q.val = q.val; omega
    · show (V c main_v4 : S1x64.Idx → EReal) (((cfg4.win 2).blk t).view.emb (ix2 (0 : Fin 1) q))
        = (V c main_v4 : S1x64.Idx → EReal) (ix2 (0 : Fin 1) q)
      refine congrArg _ ?_
      funext a; apply Fin.ext
      match a with
      | ⟨0, _⟩ => show win4_2.index t (0 : Fin 2) * 1 + 1 * 0 = 0; omega
      | ⟨1, _⟩ => show win4_2.index t (1 : Fin 2) * 64 + 1 * q.val = q.val; omega
  · intro q
    show (V c main_arg20 : S64x1.Idx → EReal) (((cfg4.win 3).blk t).view.emb (ix2 q (j 1)))
      = (V c main_arg20 : S64x1.Idx → EReal) (ix2 q ((((cfg4.win 5).blk t).view.emb j) 1))
    refine congrArg _ ?_
    funext a; apply Fin.ext
    match a with
    | ⟨0, _⟩ => show win4_3.index t (0 : Fin 2) * 64 + 1 * q.val = q.val; omega
    | ⟨1, _⟩ => show win4_3.index t (1 : Fin 2) * 1 + 1 * (j 1).val = win4_5.index t (1 : Fin 2) * 1 + 1 * (j 1).val; omega
  · show (V c main_v5 : S1x1.Idx → EReal) (((cfg4.win 4).blk t).view.emb (ix2 (0 : Fin 1) (j 1)))
      = (V c main_v5 : S1x1.Idx → EReal) (ix2 (0 : Fin 1) ((((cfg4.win 5).blk t).view.emb j) 1))
    refine congrArg _ ?_
    funext a; apply Fin.ext
    match a with
    | ⟨0, _⟩ => show win4_4.index t (0 : Fin 2) * 1 + 1 * 0 = 0; omega
    | ⟨1, _⟩ => show win4_4.index t (1 : Fin 2) * 1 + 1 * (j 1).val = win4_5.index t (1 : Fin 2) * 1 + 1 * (j 1).val; omega

/-- An index of the output array lies in point t's block exactly when each coordinate lies in the block's range. -/
theorem mem_blk4 (t : Fin cfg4.N) (i : S150000x1.Idx) :
    i ∈ ((cfg4.win 5).blk t).view.set ↔ ∀ a : Fin 2, win4_5.index t a * S5000x1.size a ≤ (i a).val
      ∧ (i a).val < win4_5.index t a * S5000x1.size a + S5000x1.size a := by
  show i ∈ ((View.whole main_v67).slice (win4_5.rect t)).set ↔ _
  rw [View.set_slice_whole, Rect.mem_set_unit]
  exact Iff.rfl

/-- The blocks tile the output array. -/
theorem cover4 (i : S150000x1.Idx) :
    ∃ t : Fin cfg4.N, (cfg4.win 5).flush t = true ∧ i ∈ ((cfg4.win 5).blk t).view.set := by
  have hi0 : (i 0).val < 150000 := (i 0).isLt
  have hi1 : (i 1).val < 1 := (i 1).isLt
  obtain ⟨t, ht⟩ := idx_onto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 1 ≤ (i 1).val ∧ (i 1).val < win4_5.index t (1 : Fin 2) * 1 + 1; omega

/-- After the region its output array is the head of the whole arrays the region found. -/
theorem final4 (c : Dev nD) : (dat4 V c).arrAt 5 cfg4.N
    = lin (layer (V c main_v66 : S150000x64.Idx → EReal) (V c main_arg18 : S64x64.Idx → EReal) (V c main_v4 : S1x64.Idx → EReal))
        (V c main_arg20 : S64x1.Idx → EReal) (V c main_v5 : S1x1.Idx → EReal) :=
  (dat4 V c).arrAt_eq_of_cover 5 _ (fun t _ => flushed4_eq V c t) cover4

end Cert.KernelIdeal.Regions

end
-- ==== Proof.LibRowGather.lean ====
/-
  ROW GATHER READ AT AN INDEX. A gather of whole rows of a matrix `x : [N, D]` at a column of start indices
  `idx : [E, 1]` (offset axis 1, collapsed slice axis 0, start index map [0], index vector axis 1, slice sizes
  [1, D]): result element `(e, f)` is `x` at row `idx[e, 0]`, read as a signed integer and clamped into
  `[0, N - 1]`, and column `f`.
-/
import Idealize.ShloMosaic.Lib.ValueIdx
import Idealize.ShloMosaic.PureOps.ShapeOps

namespace Cert.LibRowGather

open Idealize.ShloMosaic Idealize.ShloMosaic.ValueIdx

/-- The row gather at `(e, f)`: the operand at row `min (idx[e, 0] read signed, negative as 0) (N - 1)` and column `f`.
    On axis 0 the operand index is the clamped start (the slice has one row, the axis is collapsed, so no offset); on
    axis 1 the start is 0 (the axis is not in the start index map) and the offset coordinate is `f`. -/
theorem rowGather_apply {α : Type} {N D E w : ℕ} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (f : Fin D) :
    Host.gather d x idx (ix2 e f)
      = x (ix2 ⟨min (idx (ix2 e (0 : Fin 1))).toInt.toNat (N - 1), by omega⟩ f) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, D], wf⟩ :
          GatherDims ⟨2, ![N, D]⟩ ⟨2, ![E, 1]⟩ ⟨2, ![E, D]⟩) (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨(show (1 : Fin 2) ∉ [0] by decide), List.not_mem_nil⟩)]
    simp only [Nat.zero_add]
    rfl

end Cert.LibRowGather
-- ==== Proof.LibRowScatter.lean ====
/-
  ROW SCATTER-ADD READ AT AN INDEX. An accumulating scatter of whole rows into a matrix `x : [N, D]` at a column of
  scatter indices `idx : [E, 1]` with updates `upd : [E, D]` (update window axis 1, inserted window axis 0, scatter
  dims to operand dims [0], index vector axis 1), over the extended reals: element `(n, g)` of the result is
  `x[n, g]` plus the sum of `upd[e, g]` over the update rows `e` whose index `idx[e, 0]`, read as a signed integer,
  is `n`. An update row whose index is outside `[0, N)` contributes nowhere.
-/
import Idealize.ShloMosaic.Lib.ValueIdx
import Idealize.ShloMosaic.PureOps.Ideal

open scoped BigOperators

namespace Cert.LibRowScatter

open Idealize.ShloMosaic Idealize.ShloMosaic.ValueIdx

/-- For any scatter dimension numbers: update index `j` lands at operand index `i` exactly when, on every operand
    axis, the start (read signed, not clamped) plus the window coordinate is `i`'s coordinate. (The update is dropped
    exactly when some axis leaves the operand, and no index `i` of the operand has such a coordinate.) -/
theorem resultIdx?_eq_some_iff_forall {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · rintro rfl a
      have := (h a).1
      simp only [Int.toNat_of_nonneg this]
    · intro hh
      funext a
      refine Fin.ext ?_
      have := hh a
      show (d.start j idx a + (d.window j a : ℤ)).toNat = (i a).val
      omega
  · rename_i h
    constructor
    · intro hh; cases hh
    · intro hh
      exfalso
      apply h
      intro a
      have := hh a
      have := (i a).isLt
      omega

/-- The row scatter's dimension numbers, as a record over its well-formedness fact. -/
private abbrev rowDims {N D E : ℕ} (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ := ⟨[1], [0], [0], 1, wf⟩

section
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (f : Fin D)

/-- On the scattered axis the start is the row index `idx[e, 0]` read signed. -/
private theorem start0 : (rowDims wf).start (ix2 e f) idx 0 = (idx (ix2 e (0 : Fin 1))).toInt := by
  unfold ScatterDims.start
  rw [dif_pos (List.mem_singleton.mpr rfl)]
  have hsi : (rowDims wf).siIdx (ix2 e f)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The scattered axis is inserted: its window coordinate is 0. -/
private theorem window0 : (rowDims wf).window (ix2 e f) 0 = 0 := by
  unfold ScatterDims.window
  rw [dif_neg]
  show (0 : Fin 2) ∉ (List.finRange 2).filter (· ∉ [(0 : Fin 2)])
  decide

/-- The column axis is not scattered: its start is 0. -/
private theorem start1 : (rowDims wf).start (ix2 e f) idx 1 = 0 := by
  unfold ScatterDims.start
  rw [dif_neg]
  show (1 : Fin 2) ∉ [(0 : Fin 2)]
  decide

/-- The column axis is the window axis: its window coordinate is the update's column. -/
private theorem window1 : (rowDims wf).window (ix2 e f) 1 = f.val := by
  unfold ScatterDims.window
  rw [dif_pos]
  · rfl
  · show (1 : Fin 2) ∈ (List.finRange 2).filter (· ∉ [(0 : Fin 2)])
    decide

end

/-- Where update element `(e, f)` lands: at `(n, g)` exactly when the row index `idx[e, 0]`, read signed, is `n` and
    the columns agree. On axis 0 the result index is the start (not clamped) plus window coordinate 0 (the axis is
    inserted); on axis 1 it is start 0 (the axis is not scattered) plus the window coordinate `f`. -/
theorem resultIdx?_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f g : Fin D) (n : Fin N) :
    d.resultIdx? (ix2 e f) idx = some (ix2 n g) ↔ (idx (ix2 e (0 : Fin 1))).toInt = (n.val : ℤ) ∧ f = g := by
  obtain ⟨uw, iw, sd, ivd, wf⟩ := d
  simp only at h1 h2 h3 h4
  subst h1 h2 h3 h4
  show (rowDims wf).resultIdx? (ix2 e f) idx = some (ix2 n g) ↔ _
  rw [resultIdx?_eq_some_iff_forall]
  constructor
  · intro hh
    have e0 : (rowDims wf).start (ix2 e f) idx 0 + ((rowDims wf).window (ix2 e f) 0 : ℤ) = (n.val : ℤ) := hh 0
    have e1 : (rowDims wf).start (ix2 e f) idx 1 + ((rowDims wf).window (ix2 e f) 1 : ℤ) = (g.val : ℤ) := hh 1
    rw [start0, window0] at e0
    rw [start1, window1] at e1
    refine ⟨by simpa using e0, Fin.ext ?_⟩
    have : (f.val : ℤ) = (g.val : ℤ) := by simpa using e1
    exact_mod_cast this
  · rintro ⟨hn, rfl⟩ a
    match a with
    | ⟨0, _⟩ =>
      show (rowDims wf).start (ix2 e f) idx 0 + ((rowDims wf).window (ix2 e f) 0 : ℤ) = (n.val : ℤ)
      rw [start0, window0, hn]; simp
    | ⟨1, _⟩ =>
      show (rowDims wf).start (ix2 e f) idx 1 + ((rowDims wf).window (ix2 e f) 1 : ℤ) = (f.val : ℤ)
      rw [start1, window1]; simp

/-- THE ROW SCATTER-ADD AT `(n, g)`: the operand's element plus the updates `upd[e, g]` of the rows `e` whose index,
    read signed, is `n`. The sum over the update elements landing at `(n, g)` is a double sum over rows and columns; in
    row `e` only column `g` can land there, and it does exactly when `idx[e, 0] = n`. -/
theorem rowScatterAdd_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (n : Fin N) (g : Fin D) :
    Host.scatterAdd (F := Ideal) (φ := .f32) d x idx upd (ix2 n g)
      = x (ix2 n g) + ∑ e : Fin E, if (idx (ix2 e (0 : Fin 1))).toInt = (n.val : ℤ) then upd (ix2 e g) else 0 := by
  show x (ix2 n g) + ∑ j ∈ Finset.univ.filter (fun j => d.resultIdx? j idx = some (ix2 n g)), upd j = _
  congr 1
  rw [Finset.sum_filter, sum_idx2]
  refine Finset.sum_congr rfl fun e _ => ?_
  simp only [resultIdx?_eq_some_iff d h1 h2 h3 h4]
  by_cases hc : (idx (ix2 e (0 : Fin 1))).toInt = (n.val : ℤ)
  · simp only [hc, true_and, if_true]
    rw [Finset.sum_ite_eq' Finset.univ g (fun f => upd (ix2 e f))]
    simp
  · simp only [hc, false_and, if_false]
    exact Finset.sum_const_zero

end Cert.LibRowScatter
-- ==== Proof.LibSegmentSum.lean ====
/-
  A scatter whose operand is a vector, whose scatter indices are a column of start positions and
  whose updates are a vector with one entry per start position (no window axes: every update is a
  single element) is a segment sum: update e lands on operand position n exactly when the e-th
  start position, read as a signed integer, equals n; a start position outside the operand drops
  its update.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- A rank-1 index built from a coordinate has that coordinate on its one axis, however the axis
    is written. -/
theorem ix1_apply_any {n : Nat} (a : Fin n) (x : Fin 1) : (ix1 a x).val = a.val := by
  match x with
  | ⟨0, _⟩ => rfl

variable {s si u : Shape}

/-- With no update window axes, every window coordinate is zero. -/
theorem window_eq_zero_of_nil (d : ScatterDims s si u) (h : d.updateWindowDims = []) (j : u.Idx)
    (a : Fin s.rank) : d.window j a = 0 := by
  unfold ScatterDims.window
  split
  · rename_i ha
    have hlt : d.sKept.idxOf a < d.updateWindowDims.length := by
      rw [d.window_length]; exact List.idxOf_lt_length_iff.2 ha
    rw [h] at hlt
    exact absurd hlt (Nat.not_lt_zero _)
  · rfl

/-- **A column scatter is a segment sum.** For an operand vector of extent `N`, a column of `E`
    start positions (scatter indices of shape `[E, 1]`, the index vector on axis 1) and `E`
    single-element updates (no update window axes, operand axis 0 inserted, start positions
    addressing operand axis 0): update `e` lands on operand position `n` exactly when the signed
    value of start position `e` is `n`. -/
theorem resultIdx?_column {N E w : Nat}
    (d : ScatterDims (⟨1, ![N]⟩ : Shape) (⟨2, ![E, 1]⟩ : Shape) (⟨1, ![E]⟩ : Shape))
    (huw : d.updateWindowDims = []) (hsd : d.scatterDimsToOperandDims = [0])
    (hiv : d.indexVectorDim = 1)
    (idx : IVec (⟨2, ![E, 1]⟩ : Shape) w) (e : Fin E) (n : Fin N) :
    d.resultIdx? (ix1 e) idx = some (ix1 n) ↔ (idx (ix2 e 0)).toInt = (n.val : Int) := by
  have hwin : ∀ a, d.window (ix1 e) a = 0 := fun a => window_eq_zero_of_nil d huw _ a
  have hstart : ∀ a, d.start (ix1 e) idx a = (idx (ix2 e 0)).toInt := by
    intro a
    obtain ⟨uw, iw, sd, iv, wf⟩ := d
    simp only at huw hsd hiv
    subst huw hsd hiv
    have ha : a = 0 := Subsingleton.elim _ _
    subst ha
    unfold ScatterDims.start
    rw [dif_pos (List.mem_singleton.2 rfl)]
    congr 2
    funext b
    match b with
    | ⟨0, _⟩ =>
      apply Fin.ext
      unfold ScatterDims.siIdx
      rw [dif_neg (by simp)]
      unfold ScatterDims.siCoord
      simp only [Fin.coe_cast]
      exact ix1_apply_any e _
    | ⟨1, _⟩ =>
      apply Fin.ext
      unfold ScatterDims.siIdx
      rw [dif_pos rfl]
      simp
  unfold ScatterDims.resultIdx?
  constructor
  · intro h
    split at h
    · rename_i hc
      have h0 := congrFun (Option.some.inj h) 0
      have hv : (d.start (ix1 e) idx 0 + d.window (ix1 e) 0).toNat = n.val := congrArg Fin.val h0
      have hc0 : 0 ≤ d.start (ix1 e) idx 0 + d.window (ix1 e) 0 := (hc 0).1
      rw [hwin, hstart] at hv hc0
      omega
    · exact absurd h (by simp)
  · intro h
    have hc : ∀ a, 0 ≤ d.start (ix1 e) idx a + d.window (ix1 e) a ∧
        d.start (ix1 e) idx a + d.window (ix1 e) a < (⟨1, ![N]⟩ : Shape).size a := by
      intro a
      have ha : a = 0 := Subsingleton.elim _ _
      subst ha
      rw [hwin, hstart, h]
      have := n.isLt
      constructor
      · omega
      · show (n.val : Int) + ((0 : Nat) : Int) < (N : Int)
        omega
    rw [dif_pos hc]
    congr 1
    funext a
    have ha : a = 0 := Subsingleton.elim _ _
    subst ha
    apply Fin.ext
    show (d.start (ix1 e) idx 0 + d.window (ix1 e) 0).toNat = n.val
    rw [hwin, hstart, h]
    omega

end Cert.Lib.SegmentSum

end
-- ==== Proof.LibSumIdx1.lean ====
/-
  A sum over a rank-one index set is the sum over its one coordinate.

  An index of a one-axis shape of extent n is a function from the one axis to its coordinate; it is determined by that
  coordinate, so summing over all indices is summing over the coordinate's range.
-/
import Idealize.ShloMosaic.Lib.ValueIdx

namespace Cert.PairLoss

open Idealize.ShloMosaic Idealize.ShloMosaic.ValueIdx

/-- A rank-one index set is its one coordinate's range, so a sum over it is the sum over the coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

end Cert.PairLoss
-- ==== Proof.LibVecScatterAdd.lean ====
/-
  AN ACCUMULATING SCATTER INTO A VECTOR READ AT AN INDEX. Single-element updates `upd : [E]` added into a vector
  `x : [N]` at a column of positions `idx : [E, 1]` (no update window axes, operand axis 0 inserted, positions
  addressing operand axis 0, the index vector on axis 1 — a segment sum), over the extended reals: element `n` of
  the result is `x[n]` plus the sum of `upd[e]` over the updates `e` whose position `idx[e, 0]`, read as a signed
  integer, is `n`. An update whose position is outside `[0, N)` contributes nowhere.
-/
import Idealize.ShloMosaic.PureOps.Ideal
import Idealize.ShloMosaic.Lib.ValueIdx
import proofs.«179896_j37967510896698_1_alg».proof.Proof.LibSegmentSum
import proofs.«179896_j37967510896698_1_alg».proof.Proof.LibSumIdx1

open scoped BigOperators

namespace Cert.LibVecScatterAdd

open Idealize.ShloMosaic Idealize.ShloMosaic.ValueIdx

/-- The scatter-add into a vector at `n`: the operand's element plus the updates whose position, read signed, is `n`.
    The sum over the update elements landing at `n` is a filtered sum over the updates' indices; update `e` lands
    there exactly when `idx[e, 0] = n`. -/
theorem vecScatterAdd_apply {N E w : ℕ} (d : ScatterDims (⟨1, ![N]⟩ : Shape) (⟨2, ![E, 1]⟩ : Shape) (⟨1, ![E]⟩ : Shape))
    (huw : d.updateWindowDims = []) (hsd : d.scatterDimsToOperandDims = [0]) (hiv : d.indexVectorDim = 1)
    (x : (⟨1, ![N]⟩ : Shape).Idx → EReal) (idx : IVec (⟨2, ![E, 1]⟩ : Shape) w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : ℤ) then upd (ix1 e) else 0 := by
  show x (ix1 n) + ∑ j ∈ Finset.univ.filter (fun j => d.resultIdx? j idx = some (ix1 n)), upd j = _
  congr 1
  rw [Finset.sum_filter, Cert.PairLoss.sum_idx1]
  refine Finset.sum_congr rfl fun e _ => ?_
  simp only [Cert.Lib.SegmentSum.resultIdx?_column d huw hsd hiv]

end Cert.LibVecScatterAdd
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibSegmentMean.lean ====
/-
  THE MEAN OVER INCOMING EDGES, IN THE MACHINE'S TWO SPELLINGS.  A host program aggregates node rows along edges by a
  gather of the sending rows, an accumulating scatter of them into the receiving rows (from a zero matrix), and a
  division by the number of edges that end at each receiving node, floored at 1.  The count is itself an accumulating
  scatter of ones, kept either as an [N, 1] column (ones of shape [E, 1] scattered into zeros of shape [N, 1]) or as a
  vector [N] (ones of shape [E] into zeros of shape [N]) that is then placed as a column; either way it is spread over
  the columns before the division.  Entry (p, g) of both is
      (0 + sum over the edges e ending at p of x(sender e, g)) / max(0 + sum over those edges of 1, 1),
  `segMean` below, for any extents and any records with these dimension numbers.  Sums and counts are written as the
  machine accumulates them: from what the zero word of the 32-bit float format denotes, adding per edge either the
  sending row's entry or what the word of 1.0 denotes; the words are never evaluated.  Nothing is distributed or
  cancelled: the equation holds entry by entry on the extended reals.
-/
import Idealize.ShloMosaic.PureOps.Ideal
import Idealize.ShloMosaic.Lib.ValueIdx
import proofs.«179896_j37967510896698_1_alg».proof.Proof.LibRowGather
import proofs.«179896_j37967510896698_1_alg».proof.Proof.LibRowScatter
import proofs.«179896_j37967510896698_1_alg».proof.Proof.LibVecScatterAdd
import proofs.«179896_j37967510896698_1_alg».proof.Proof.LibBroadcastInDim
import proofs.«179896_j37967510896698_1_alg».proof.Proof.LibRowStages

noncomputable section

open scoped BigOperators

namespace Cert.LibSegmentMean

open Idealize.ShloMosaic Idealize.ShloMosaic.ValueIdx Cert.LibRowStages

/-- What the zero word of the 32-bit float format denotes. -/
def zeroW : EReal := Ideal.ofBits .f32 0x00000000#32

/-- What the word of 1.0 denotes. -/
def oneW : EReal := Ideal.ofBits .f32 0x3F800000#32

/-- An [E, 1] column of w-bit integer words: one node number per edge. -/
abbrev ICol (E w : ℕ) : Type := IVec ⟨2, ![E, 1]⟩ w

/-- The sum over the edges that end at node n of the sending node's entry in column g; the sending row is the edge's
    `src` word read signed and clamped into the sending side. -/
def segSum {Ns D E w : ℕ} (hNs : 0 < Ns) (x : Mat Ns D) (src dst : ICol E w) (n : ℕ) (g : Fin D) : EReal :=
  zeroW + ∑ e : Fin E, if (dst (ix2 e (0 : Fin 1))).toInt = (n : ℤ)
    then x (ix2 ⟨min (src (ix2 e (0 : Fin 1))).toInt.toNat (Ns - 1), by omega⟩ g) else 0

/-- The number of edges that end at node n, counted in the float format. -/
def segCount {E w : ℕ} (dst : ICol E w) (n : ℕ) : EReal :=
  zeroW + ∑ e : Fin E, if (dst (ix2 e (0 : Fin 1))).toInt = (n : ℤ) then oneW else 0

/-- The mean over incoming edges: the sum of the sending rows over the larger of the count and 1. -/
def segMean {Ns N D E w : ℕ} (hNs : 0 < Ns) (x : Mat Ns D) (src dst : ICol E w) : Mat N D :=
  fun i => Ideal.div (segSum hNs x src dst (i 0).val (i 1)) (max (segCount dst (i 0).val) oneW)

/-- Entry (p, g) of the mean is a function of p and g alone. -/
theorem segMean_apply {Ns N D E w : ℕ} (hNs : 0 < Ns) (x : Mat Ns D) (src dst : ICol E w) (p : Fin N) (g : Fin D) :
    segMean (N := N) hNs x src dst (ix2 p g)
      = Ideal.div (segSum hNs x src dst p.val g) (max (segCount dst p.val) oneW) := rfl

/-- The scattered sum of gathered rows at (p, g) is the sum over the edges ending at p. -/
theorem scatter_gather_apply {Ns N D E : ℕ} (hNs : 0 < Ns)
    (gd : GatherDims ⟨2, ![Ns, D]⟩ ⟨2, ![E, 1]⟩ ⟨2, ![E, D]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, D])
    (sd : ScatterDims ⟨2, ![N, D]⟩ ⟨2, ![E, 1]⟩ ⟨2, ![E, D]⟩)
    (s1 : sd.updateWindowDims = [1]) (s2 : sd.insertedWindowDims = [0]) (s3 : sd.scatterDimsToOperandDims = [0])
    (s4 : sd.indexVectorDim = 1)
    (hz : (⟨0, ![]⟩ : Shape).BroadcastsInDim ⟨2, ![N, D]⟩ ![])
    (x : FVec Ideal ⟨2, ![Ns, D]⟩ .f32) (src dst : ICol E 32) (p : Fin N) (g : Fin D) :
    Host.scatterAdd (F := Ideal) (φ := .f32) sd
        (broadcastInDim ⟨2, ![N, D]⟩ ![] hz (constant (F := Ideal) ⟨0, ![]⟩ .f32 0x00000000#32)) dst
        (Host.gather gd x src) (ix2 p g)
      = segSum hNs x src dst p.val g := by
  rw [Cert.LibRowScatter.rowScatterAdd_apply sd s1 s2 s3 s4, Cert.LibBroadcastInDim.scalar_apply]
  unfold segSum
  congr 1
  refine Finset.sum_congr rfl fun e _ => ?_
  rw [Cert.LibRowGather.rowGather_apply hNs gd g1 g2 g3 g4 g5 g6 g7 x src e g]

/-- The count kept as a column: ones of shape [E, 1] scattered into zeros of shape [N, 1], read at (p, 0). -/
theorem countCol_apply {N E : ℕ}
    (sd : ScatterDims ⟨2, ![N, 1]⟩ ⟨2, ![E, 1]⟩ ⟨2, ![E, 1]⟩)
    (s1 : sd.updateWindowDims = [1]) (s2 : sd.insertedWindowDims = [0]) (s3 : sd.scatterDimsToOperandDims = [0])
    (s4 : sd.indexVectorDim = 1)
    (hz : (⟨0, ![]⟩ : Shape).BroadcastsInDim ⟨2, ![N, 1]⟩ ![])
    (ho : (⟨0, ![]⟩ : Shape).BroadcastsInDim ⟨2, ![E, 1]⟩ ![])
    (dst : ICol E 32) (p : Fin N) :
    Host.scatterAdd (F := Ideal) (φ := .f32) sd
        (broadcastInDim ⟨2, ![N, 1]⟩ ![] hz (constant (F := Ideal) ⟨0, ![]⟩ .f32 0x00000000#32)) dst
        (broadcastInDim ⟨2, ![E, 1]⟩ ![] ho (constant (F := Ideal) ⟨0, ![]⟩ .f32 0x3F800000#32)) (ix2 p (0 : Fin 1))
      = segCount dst p.val := by
  rw [Cert.LibRowScatter.rowScatterAdd_apply sd s1 s2 s3 s4, Cert.LibBroadcastInDim.scalar_apply]
  unfold segCount
  congr 1

/-- The count kept as a vector: ones of shape [E] scattered into zeros of shape [N], read at p. -/
theorem countVec_apply {N E : ℕ}
    (sd : ScatterDims (⟨1, ![N]⟩ : Shape) (⟨2, ![E, 1]⟩ : Shape) (⟨1, ![E]⟩ : Shape))
    (s1 : sd.updateWindowDims = []) (s3 : sd.scatterDimsToOperandDims = [0]) (s4 : sd.indexVectorDim = 1)
    (hz : (⟨0, ![]⟩ : Shape).BroadcastsInDim ⟨1, ![N]⟩ ![])
    (ho : (⟨0, ![]⟩ : Shape).BroadcastsInDim ⟨1, ![E]⟩ ![])
    (dst : ICol E 32) (p : Fin N) :
    Host.scatterAdd (F := Ideal) (φ := .f32) sd
        (broadcastInDim ⟨1, ![N]⟩ ![] hz (constant (F := Ideal) ⟨0, ![]⟩ .f32 0x00000000#32)) dst
        (broadcastInDim ⟨1, ![E]⟩ ![] ho (constant (F := Ideal) ⟨0, ![]⟩ .f32 0x3F800000#32)) (ix1 p)
      = segCount dst p.val := by
  rw [Cert.LibVecScatterAdd.vecScatterAdd_apply sd s1 s3 s4, Cert.LibBroadcastInDim.scalar_apply]
  unfold segCount
  congr 1

/-- The spelling with the count kept as an [N, 1] column. -/
theorem host_segMean {Ns N D E : ℕ} (hNs : 0 < Ns)
    (gd : GatherDims ⟨2, ![Ns, D]⟩ ⟨2, ![E, 1]⟩ ⟨2, ![E, D]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, D])
    (sd : ScatterDims ⟨2, ![N, D]⟩ ⟨2, ![E, 1]⟩ ⟨2, ![E, D]⟩)
    (s1 : sd.updateWindowDims = [1]) (s2 : sd.insertedWindowDims = [0]) (s3 : sd.scatterDimsToOperandDims = [0])
    (s4 : sd.indexVectorDim = 1)
    (cd : ScatterDims ⟨2, ![N, 1]⟩ ⟨2, ![E, 1]⟩ ⟨2, ![E, 1]⟩)
    (c1 : cd.updateWindowDims = [1]) (c2 : cd.insertedWindowDims = [0]) (c3 : cd.scatterDimsToOperandDims = [0])
    (c4 : cd.indexVectorDim = 1)
    (hz : (⟨0, ![]⟩ : Shape).BroadcastsInDim ⟨2, ![N, D]⟩ ![])
    (hz1 : (⟨0, ![]⟩ : Shape).BroadcastsInDim ⟨2, ![N, 1]⟩ ![])
    (ho : (⟨0, ![]⟩ : Shape).BroadcastsInDim ⟨2, ![E, 1]⟩ ![])
    (hc : (⟨2, ![N, 1]⟩ : Shape).BroadcastsInDim ⟨2, ![N, D]⟩ ![0, 1])
    (x : FVec Ideal ⟨2, ![Ns, D]⟩ .f32) (src dst : ICol E 32) :
    Host.divf (F := Ideal) (φ := .f32)
        (Host.scatterAdd (F := Ideal) (φ := .f32) sd
          (broadcastInDim ⟨2, ![N, D]⟩ ![] hz (constant (F := Ideal) ⟨0, ![]⟩ .f32 0x00000000#32)) dst (Host.gather gd x src))
        (broadcastInDim ⟨2, ![N, D]⟩ ![0, 1] hc
          (maximumf
            (Host.scatterAdd (F := Ideal) (φ := .f32) cd
              (broadcastInDim ⟨2, ![N, 1]⟩ ![] hz1 (constant (F := Ideal) ⟨0, ![]⟩ .f32 0x00000000#32)) dst
              (broadcastInDim ⟨2, ![E, 1]⟩ ![] ho (constant (F := Ideal) ⟨0, ![]⟩ .f32 0x3F800000#32)))
            (broadcastInDim ⟨2, ![N, 1]⟩ ![] hz1 (constant (F := Ideal) ⟨0, ![]⟩ .f32 0x3F800000#32))))
      = segMean hNs x src dst := by
  funext i
  obtain ⟨p, g, rfl⟩ : ∃ (p : Fin N) (g : Fin D), i = ix2 p g := ⟨i 0, i 1, eq_ix2 i⟩
  rw [segMean_apply]
  change Ideal.div _ _ = _
  rw [scatter_gather_apply hNs gd g1 g2 g3 g4 g5 g6 g7 sd s1 s2 s3 s4 hz x src dst p g,
    Cert.LibBroadcastInDim.col_mat_apply hc _ p g]
  refine congrArg (Ideal.div _) ?_
  change max _ _ = _
  rw [countCol_apply cd c1 c2 c3 c4 hz1 ho dst p]
  exact congrArg (max _) ((Cert.LibBroadcastInDim.scalar_apply _ hz1 _ _).trans rfl)

/-- The spelling with the count kept as a vector [N], placed as a column before it is spread. -/
theorem host_segMean_vec {Ns N D E : ℕ} (hNs : 0 < Ns)
    (gd : GatherDims ⟨2, ![Ns, D]⟩ ⟨2, ![E, 1]⟩ ⟨2, ![E, D]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, D])
    (sd : ScatterDims ⟨2, ![N, D]⟩ ⟨2, ![E, 1]⟩ ⟨2, ![E, D]⟩)
    (s1 : sd.updateWindowDims = [1]) (s2 : sd.insertedWindowDims = [0]) (s3 : sd.scatterDimsToOperandDims = [0])
    (s4 : sd.indexVectorDim = 1)
    (cd : ScatterDims (⟨1, ![N]⟩ : Shape) (⟨2, ![E, 1]⟩ : Shape) (⟨1, ![E]⟩ : Shape))
    (c1 : cd.updateWindowDims = []) (c3 : cd.scatterDimsToOperandDims = [0]) (c4 : cd.indexVectorDim = 1)
    (hz : (⟨0, ![]⟩ : Shape).BroadcastsInDim ⟨2, ![N, D]⟩ ![])
    (hzv : (⟨0, ![]⟩ : Shape).BroadcastsInDim ⟨1, ![N]⟩ ![])
    (hov : (⟨0, ![]⟩ : Shape).BroadcastsInDim ⟨1, ![E]⟩ ![])
    (hv : (⟨1, ![N]⟩ : Shape).BroadcastsInDim ⟨2, ![N, 1]⟩ ![0])
    (hc : (⟨2, ![N, 1]⟩ : Shape).BroadcastsInDim ⟨2, ![N, D]⟩ ![0, 1])
    (x : FVec Ideal ⟨2, ![Ns, D]⟩ .f32) (src dst : ICol E 32) :
    Host.divf (F := Ideal) (φ := .f32)
        (Host.scatterAdd (F := Ideal) (φ := .f32) sd
          (broadcastInDim ⟨2, ![N, D]⟩ ![] hz (constant (F := Ideal) ⟨0, ![]⟩ .f32 0x00000000#32)) dst (Host.gather gd x src))
        (broadcastInDim ⟨2, ![N, D]⟩ ![0, 1] hc
          (broadcastInDim ⟨2, ![N, 1]⟩ ![0] hv
            (maximumf
              (Host.scatterAdd (F := Ideal) (φ := .f32) cd
                (broadcastInDim ⟨1, ![N]⟩ ![] hzv (constant (F := Ideal) ⟨0, ![]⟩ .f32 0x00000000#32)) dst
                (broadcastInDim ⟨1, ![E]⟩ ![] hov (constant (F := Ideal) ⟨0, ![]⟩ .f32 0x3F800000#32)))
              (broadcastInDim ⟨1, ![N]⟩ ![] hzv (constant (F := Ideal) ⟨0, ![]⟩ .f32 0x3F800000#32)))))
      = segMean hNs x src dst := by
  funext i
  obtain ⟨p, g, rfl⟩ : ∃ (p : Fin N) (g : Fin D), i = ix2 p g := ⟨i 0, i 1, eq_ix2 i⟩
  rw [segMean_apply]
  change Ideal.div _ _ = _
  rw [scatter_gather_apply hNs gd g1 g2 g3 g4 g5 g6 g7 sd s1 s2 s3 s4 hz x src dst p g,
    Cert.LibBroadcastInDim.col_mat_apply hc _ p g, Cert.LibBroadcastInDim.vec_col_apply hv _ p (0 : Fin 1)]
  refine congrArg (Ideal.div _) ?_
  change max _ _ = _
  rw [countVec_apply cd c1 c3 c4 hzv hov dst p]
  exact congrArg (max _) ((Cert.LibBroadcastInDim.scalar_apply _ hzv _ _).trans rfl)

end Cert.LibSegmentMean

end
-- ==== Proof.SageSpec.lean ====
/-
  A two-layer mean-aggregation network on a two-sided graph, as ONE function of whole arrays over the extended reals.

  One side has 100000 nodes with 128 input features, the other 150000 nodes with 64; 2000000 edges join a node of the
  first side to a node of the second.  The first side is projected to 64 features, `a = X · Wproj + bproj`.  A mean
  aggregation sends features along the edges: node n of the receiving side gets the sum, over the edges e that end at
  n, of the sending node's row, divided by the larger of 1 and the number of such edges (`segMean`).  A layer combines
  the aggregated rows with the receiving side's own rows, `max((mean · Wl + own · Wr) + b, 0)` (`dual`).  Two layers
  feed the second side (the first side's middle layer in between), and a two-stage head `max(p · Wl1 + bl1, 0) · Wl2 + bl2`
  gives one number per node of the second side.

  Sums and counts are written as the machine accumulates them, from the zero word of the 32-bit float format; the words
  are never evaluated, the same word standing on both sides of every equation.
-/
import Idealize.ShloMosaic.PureOps.Ideal
import Idealize.ShloMosaic.Lib.ValueIdx
import proofs.«179896_j37967510896698_1_alg».proof.Proof.LibDualLayer
import proofs.«179896_j37967510896698_1_alg».proof.Proof.LibLayer
import proofs.«179896_j37967510896698_1_alg».proof.Proof.LibSegmentMean

noncomputable section

open scoped BigOperators

namespace Cert.SageSpec

open Idealize.ShloMosaic Idealize.ShloMosaic.ValueIdx Cert.LibRowStages Cert.LibDualLayer Cert.LibLayer Cert.LibSegmentMean

/-- The whole network.  `srcA` / `srcP`: per edge, the sending node on the first / second side; `dstA` / `dstP`:
    per edge, the receiving node on the first / second side. -/
def net (X : Mat 100000 128) (P : Mat 150000 64) (Wproj : Mat 128 64) (bproj : Mat 1 64)
    (W1l_ap : Mat 64 64) (b1_ap : Mat 1 64) (W1r_ap : Mat 64 64)
    (W1l_pa : Mat 64 64) (b1_pa : Mat 1 64) (W1r_pa : Mat 64 64)
    (W2l_ap : Mat 64 64) (b2_ap : Mat 1 64) (W2r_ap : Mat 64 64)
    (Wl1 : Mat 64 64) (bl1 : Mat 1 64) (Wl2 : Mat 64 1) (bl2 : Mat 1 1)
    (srcA dstA srcP dstP : ICol 2000000 32) : Mat 150000 1 :=
  let a : Mat 100000 64 := lin X Wproj bproj
  let p1 : Mat 150000 64 := dual (segMean (by decide) a srcA dstP) P W1l_ap W1r_ap b1_ap
  let a1 : Mat 100000 64 := dual (segMean (by decide) P srcP dstA) a W1l_pa W1r_pa b1_pa
  let p2 : Mat 150000 64 := dual (segMean (by decide) a1 srcA dstP) p1 W2l_ap W2r_ap b2_ap
  lin (layer p2 Wl1 bl1) Wl2 bl2

end Cert.SageSpec

end
-- ==== Proof.KernelValue.lean ====
/-
  The result buffer after the last region, as the network's whole-array function of the launch memory.

  Region by region: the projection's output array is `lin` of the arguments; a host stretch's mean aggregation reads
  the arrays the earlier regions left and is `segMean` of them; a combining region's output array is `dual` of the
  aggregated rows, the receiving side's own rows, two weight matrices and a bias row; the head's output array is a
  floored layer followed by `lin`.  Chained, the result buffer is `net` of the argument arrays, the index columns
  being the two edge arrays placed as columns (after the wrap of negative node numbers where a gather reads them).
-/
import proofs.«179896_j37967510896698_1_alg».proof.Proof.Gen.KernelIdeal.Frame
import proofs.«179896_j37967510896698_1_alg».proof.Proof.KernelKept
import proofs.«179896_j37967510896698_1_alg».proof.Proof.KernelRegions
import proofs.«179896_j37967510896698_1_alg».proof.Proof.LibSegmentMean
import proofs.«179896_j37967510896698_1_alg».proof.Proof.SageSpec
import Idealize.ShloMosaic.Lib.StableHlo.Run

set_option maxRecDepth 16384

noncomputable section

namespace Cert.KernelIdeal.Trace

open Cert.KernelIdeal Cert.KernelIdeal.Gen
open Idealize.ShloMosaic Idealize.ShloMosaic.TcCoe Idealize.ShloMosaic.StableHlo
open Idealize.SL.Sem
open Idealize.ShloMosaic.Pipeline (Dat Cfg Window)
open Cert.LibRowStages Cert.LibDualLayer Cert.LibLayer Cert.SageSpec Cert.LibSegmentMean

/-- An edge array placed as an [E, 1] column. -/
abbrev col (a : (⟨S2000000, .i32⟩ : BufTy).Contents (Elt Ideal)) : ICol 2000000 32 :=
  broadcastInDim S2000000x1 ![0] bcast_S2000000_S2000000x1_0 a

/-- An edge array with n added to its negative entries, placed as an [E, 1] column: what a gather reads. -/
abbrev wrapCol (n : BitVec 32) (a : (⟨S2000000, .i32⟩ : BufTy).Contents (Elt Ideal)) : ICol 2000000 32 :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 n))) a)

variable (m : (ℓ : Loc nD τ sig) → Buf (Elt Ideal) ℓ) (ρ : Dev nD → PrngReg) (c : Dev nD)

/-! ## The stages, as functions of the launch memory -/

/-- The first side projected to 64 features. -/
def projA : Mat 100000 64 :=
  lin ((m ((c : Thread nD τ).loc main_arg0)) : S100000x128.Idx → EReal) ((m ((c : Thread nD τ).loc main_arg4)) : S128x64.Idx → EReal) (shapeCast S1x64 (m ((c : Thread nD τ).loc main_arg5)) shapeCasts_S64_S1x64)

/-- The projected first side averaged onto the second side. -/
def mean1P : Mat 150000 64 :=
  segMean (by decide) (projA m c) (wrapCol 100000#32 (m ((c : Thread nD τ).loc main_arg1))) (col (m ((c : Thread nD τ).loc main_arg2)))

/-- The second side after the first layer. -/
def layer1P : Mat 150000 64 :=
  dual (mean1P m c) ((m ((c : Thread nD τ).loc main_arg3)) : S150000x64.Idx → EReal) ((m ((c : Thread nD τ).loc main_arg6)) : S64x64.Idx → EReal)
    ((m ((c : Thread nD τ).loc main_arg8)) : S64x64.Idx → EReal) (shapeCast S1x64 (m ((c : Thread nD τ).loc main_arg7)) shapeCasts_S64_S1x64)

/-- The second side's input features averaged onto the first side. -/
def mean1A : Mat 100000 64 :=
  segMean (by decide) ((m ((c : Thread nD τ).loc main_arg3)) : S150000x64.Idx → EReal) (wrapCol 150000#32 (m ((c : Thread nD τ).loc main_arg2))) (col (m ((c : Thread nD τ).loc main_arg1)))

/-- The first side after the first layer. -/
def layer1A : Mat 100000 64 :=
  dual (mean1A m c) (projA m c) ((m ((c : Thread nD τ).loc main_arg9)) : S64x64.Idx → EReal) ((m ((c : Thread nD τ).loc main_arg11)) : S64x64.Idx → EReal) (shapeCast S1x64 (m ((c : Thread nD τ).loc main_arg10)) shapeCasts_S64_S1x64)

/-- The first side's first-layer rows averaged onto the second side. -/
def mean2P : Mat 150000 64 :=
  segMean (by decide) (layer1A m c) (wrapCol 100000#32 (m ((c : Thread nD τ).loc main_arg1))) (col (m ((c : Thread nD τ).loc main_arg2)))

/-- The second side after the second layer. -/
def layer2P : Mat 150000 64 :=
  dual (mean2P m c) (layer1P m c) ((m ((c : Thread nD τ).loc main_arg12)) : S64x64.Idx → EReal) ((m ((c : Thread nD τ).loc main_arg14)) : S64x64.Idx → EReal) (shapeCast S1x64 (m ((c : Thread nD τ).loc main_arg13)) shapeCasts_S64_S1x64)

/-- The head: one number per node of the second side. -/
def headOut : Mat 150000 1 :=
  lin (layer (layer2P m c) ((m ((c : Thread nD τ).loc main_arg18)) : S64x64.Idx → EReal) (shapeCast S1x64 (m ((c : Thread nD τ).loc main_arg19)) shapeCasts_S64_S1x64))
    ((m ((c : Thread nD τ).loc main_arg20)) : S64x1.Idx → EReal) (shapeCast S1x1 (m ((c : Thread nD τ).loc main_arg21)) shapeCasts_S1_S1x1)

/-- The stages chained are the network of the specification. -/
theorem headOut_eq_net : headOut m c = net ((m ((c : Thread nD τ).loc main_arg0)) : S100000x128.Idx → EReal) ((m ((c : Thread nD τ).loc main_arg3)) : S150000x64.Idx → EReal)
    ((m ((c : Thread nD τ).loc main_arg4)) : S128x64.Idx → EReal) (shapeCast S1x64 (m ((c : Thread nD τ).loc main_arg5)) shapeCasts_S64_S1x64)
    ((m ((c : Thread nD τ).loc main_arg6)) : S64x64.Idx → EReal) (shapeCast S1x64 (m ((c : Thread nD τ).loc main_arg7)) shapeCasts_S64_S1x64) ((m ((c : Thread nD τ).loc main_arg8)) : S64x64.Idx → EReal)
    ((m ((c : Thread nD τ).loc main_arg9)) : S64x64.Idx → EReal) (shapeCast S1x64 (m ((c : Thread nD τ).loc main_arg10)) shapeCasts_S64_S1x64) ((m ((c : Thread nD τ).loc main_arg11)) : S64x64.Idx → EReal)
    ((m ((c : Thread nD τ).loc main_arg12)) : S64x64.Idx → EReal) (shapeCast S1x64 (m ((c : Thread nD τ).loc main_arg13)) shapeCasts_S64_S1x64) ((m ((c : Thread nD τ).loc main_arg14)) : S64x64.Idx → EReal)
    ((m ((c : Thread nD τ).loc main_arg18)) : S64x64.Idx → EReal) (shapeCast S1x64 (m ((c : Thread nD τ).loc main_arg19)) shapeCasts_S64_S1x64) ((m ((c : Thread nD τ).loc main_arg20)) : S64x1.Idx → EReal)
    (shapeCast S1x1 (m ((c : Thread nD τ).loc main_arg21)) shapeCasts_S1_S1x1)
    (wrapCol 100000#32 (m ((c : Thread nD τ).loc main_arg1))) (col (m ((c : Thread nD τ).loc main_arg1))) (wrapCol 150000#32 (m ((c : Thread nD τ).loc main_arg2))) (col (m ((c : Thread nD τ).loc main_arg2))) := rfl

/-! ## Region 0 and the first aggregation -/

/-- After region 0 its output array is the projection. -/
theorem W2_main_v6 : W2 (F := Ideal) m ρ c (Proc.devRef .tc main_v6) = projA m c :=
  (W2_arr m ρ c 3).trans ((Regions.final0 (V1 m ρ) c).trans (by
    show lin (W1 (F := Ideal) m ρ c (Proc.devRef .tc main_arg0) : S100000x128.Idx → EReal) (W1 (F := Ideal) m ρ c (Proc.devRef .tc main_arg4) : S128x64.Idx → EReal) (W1 (F := Ideal) m ρ c (Proc.devRef .tc main_v0) : S1x64.Idx → EReal) = _
    rw [W1_main_arg0 m ρ c, W1_main_arg4 m ρ c, W1_main_v0 m ρ c]
    rfl))
theorem W3_main_v6 : W3 (F := Ideal) m ρ c (Proc.devRef .tc main_v6) = projA m c :=
  (show W3 (F := Ideal) m ρ c (Proc.devRef .tc main_v6) = W2 (F := Ideal) m ρ c (Proc.devRef .tc main_v6) from by host_kept hostOps1).trans (W2_main_v6 m ρ c)
theorem W4_main_v6 : W4 (F := Ideal) m ρ c (Proc.devRef .tc main_v6) = projA m c :=
  (W4_of_ne m ρ c main_v6 (by decide)).trans (W3_main_v6 m ρ c)
theorem W5_main_v6 : W5 (F := Ideal) m ρ c (Proc.devRef .tc main_v6) = projA m c :=
  (show W5 (F := Ideal) m ρ c (Proc.devRef .tc main_v6) = W4 (F := Ideal) m ρ c (Proc.devRef .tc main_v6) from by host_kept hostOps2).trans (W4_main_v6 m ρ c)

set_option maxHeartbeats 4000000 in
/-- The first host aggregation: the projected rows averaged onto the second side. -/
theorem W3_main_v25 : W3 (F := Ideal) m ρ c (Proc.devRef .tc main_v25) = mean1P m c := by
  show StableHlo.after hostOps1 (W2 (F := Ideal) m ρ c) (Proc.devRef .tc main_v25) = _
  after_results_simp
  rw [W2_main_v6 m ρ c, W2_main_arg1 m ρ c, W2_main_arg2 m ρ c]
  exact host_segMean_vec (by decide) gather_S100000x64_S2000000x1_S2000000x64_1_0_n_n_0_1_164 rfl rfl rfl rfl rfl rfl rfl
    scatter_S150000x64_S2000000x1_S2000000x64_1_0_0_1 rfl rfl rfl rfl
    scatter_S150000_S2000000x1_S2000000_n_0_0_1 rfl rfl rfl
    bcast_S_S150000x64 bcast_S_S150000 bcast_S_S2000000 bcast_S150000_S150000x1_0 bcast_S150000x1_S150000x64_0_1 _ _ _

/-! ## Region 1 and the second aggregation -/

/-- After region 1 its output array is the second side's first layer. -/
theorem W4_main_v26 : W4 (F := Ideal) m ρ c (Proc.devRef .tc main_v26) = layer1P m c :=
  (W4_arr m ρ c 5).trans ((Regions.final1 (V3 m ρ) c).trans (by
    show dual (W3 (F := Ideal) m ρ c (Proc.devRef .tc main_v25) : S150000x64.Idx → EReal) (W3 (F := Ideal) m ρ c (Proc.devRef .tc main_arg3) : S150000x64.Idx → EReal) (W3 (F := Ideal) m ρ c (Proc.devRef .tc main_arg6) : S64x64.Idx → EReal)
      (W3 (F := Ideal) m ρ c (Proc.devRef .tc main_arg8) : S64x64.Idx → EReal) (W3 (F := Ideal) m ρ c (Proc.devRef .tc main_v1) : S1x64.Idx → EReal) = _
    rw [W3_main_v25 m ρ c, W3_main_arg3 m ρ c, W3_main_arg6 m ρ c, W3_main_arg8 m ρ c, W3_main_v1 m ρ c]
    rfl))
theorem W5_main_v26 : W5 (F := Ideal) m ρ c (Proc.devRef .tc main_v26) = layer1P m c :=
  (show W5 (F := Ideal) m ρ c (Proc.devRef .tc main_v26) = W4 (F := Ideal) m ρ c (Proc.devRef .tc main_v26) from by host_kept hostOps2).trans (W4_main_v26 m ρ c)
theorem W6_main_v26 : W6 (F := Ideal) m ρ c (Proc.devRef .tc main_v26) = layer1P m c :=
  (W6_of_ne m ρ c main_v26 (by decide)).trans (W5_main_v26 m ρ c)
theorem W7_main_v26 : W7 (F := Ideal) m ρ c (Proc.devRef .tc main_v26) = layer1P m c :=
  (show W7 (F := Ideal) m ρ c (Proc.devRef .tc main_v26) = W6 (F := Ideal) m ρ c (Proc.devRef .tc main_v26) from by host_kept hostOps3).trans (W6_main_v26 m ρ c)

set_option maxHeartbeats 4000000 in
/-- The second host aggregation: the second side's input rows averaged onto the first side. -/
theorem W5_main_v45 : W5 (F := Ideal) m ρ c (Proc.devRef .tc main_v45) = mean1A m c := by
  show StableHlo.after hostOps2 (W4 (F := Ideal) m ρ c) (Proc.devRef .tc main_v45) = _
  after_results_simp
  rw [W4_main_arg3 m ρ c, W4_main_arg1 m ρ c, W4_main_arg2 m ρ c]
  exact host_segMean_vec (by decide) gather_S150000x64_S2000000x1_S2000000x64_1_0_n_n_0_1_164 rfl rfl rfl rfl rfl rfl rfl
    scatter_S100000x64_S2000000x1_S2000000x64_1_0_0_1 rfl rfl rfl rfl
    scatter_S100000_S2000000x1_S2000000_n_0_0_1 rfl rfl rfl
    bcast_S_S100000x64 bcast_S_S100000 bcast_S_S2000000 bcast_S100000_S100000x1_0 bcast_S100000x1_S100000x64_0_1 _ _ _

/-! ## Region 2 and the third aggregation -/

/-- After region 2 its output array is the first side's first layer. -/
theorem W6_main_v46 : W6 (F := Ideal) m ρ c (Proc.devRef .tc main_v46) = layer1A m c :=
  (W6_arr m ρ c 5).trans ((Regions.final2 (V5 m ρ) c).trans (by
    show dual (W5 (F := Ideal) m ρ c (Proc.devRef .tc main_v45) : S100000x64.Idx → EReal) (W5 (F := Ideal) m ρ c (Proc.devRef .tc main_v6) : S100000x64.Idx → EReal) (W5 (F := Ideal) m ρ c (Proc.devRef .tc main_arg9) : S64x64.Idx → EReal)
      (W5 (F := Ideal) m ρ c (Proc.devRef .tc main_arg11) : S64x64.Idx → EReal) (W5 (F := Ideal) m ρ c (Proc.devRef .tc main_v2) : S1x64.Idx → EReal) = _
    rw [W5_main_v45 m ρ c, W5_main_v6 m ρ c, W5_main_arg9 m ρ c, W5_main_arg11 m ρ c, W5_main_v2 m ρ c]
    rfl))

set_option maxHeartbeats 4000000 in
/-- The third host aggregation: the first side's first-layer rows averaged onto the second side. -/
theorem W7_main_v65 : W7 (F := Ideal) m ρ c (Proc.devRef .tc main_v65) = mean2P m c := by
  show StableHlo.after hostOps3 (W6 (F := Ideal) m ρ c) (Proc.devRef .tc main_v65) = _
  after_results_simp
  rw [W6_main_v46 m ρ c, W6_main_arg1 m ρ c, W6_main_arg2 m ρ c]
  exact host_segMean_vec (by decide) gather_S100000x64_S2000000x1_S2000000x64_1_0_n_n_0_1_164 rfl rfl rfl rfl rfl rfl rfl
    scatter_S150000x64_S2000000x1_S2000000x64_1_0_0_1 rfl rfl rfl rfl
    scatter_S150000_S2000000x1_S2000000_n_0_0_1 rfl rfl rfl
    bcast_S_S150000x64 bcast_S_S150000 bcast_S_S2000000 bcast_S150000_S150000x1_0 bcast_S150000x1_S150000x64_0_1 _ _ _

/-! ## Regions 3 and 4 -/

/-- After region 3 its output array is the second side's second layer. -/
theorem W8_main_v66 : W8 (F := Ideal) m ρ c (Proc.devRef .tc main_v66) = layer2P m c :=
  (W8_arr m ρ c 5).trans ((Regions.final3 (V7 m ρ) c).trans (by
    show dual (W7 (F := Ideal) m ρ c (Proc.devRef .tc main_v65) : S150000x64.Idx → EReal) (W7 (F := Ideal) m ρ c (Proc.devRef .tc main_v26) : S150000x64.Idx → EReal) (W7 (F := Ideal) m ρ c (Proc.devRef .tc main_arg12) : S64x64.Idx → EReal)
      (W7 (F := Ideal) m ρ c (Proc.devRef .tc main_arg14) : S64x64.Idx → EReal) (W7 (F := Ideal) m ρ c (Proc.devRef .tc main_v3) : S1x64.Idx → EReal) = _
    rw [W7_main_v65 m ρ c, W7_main_v26 m ρ c, W7_main_arg12 m ρ c, W7_main_arg14 m ρ c, W7_main_v3 m ρ c]
    rfl))

/-- After region 4 the result buffer is the head of the second side's second layer. -/
theorem W9_main_v67 : W9 (F := Ideal) m ρ c (Proc.devRef .tc main_v67) = headOut m c :=
  (W9_arr m ρ c 5).trans ((Regions.final4 (V8 m ρ) c).trans (by
    show lin (layer (W8 (F := Ideal) m ρ c (Proc.devRef .tc main_v66) : S150000x64.Idx → EReal) (W8 (F := Ideal) m ρ c (Proc.devRef .tc main_arg18) : S64x64.Idx → EReal) (W8 (F := Ideal) m ρ c (Proc.devRef .tc main_v4) : S1x64.Idx → EReal))
      (W8 (F := Ideal) m ρ c (Proc.devRef .tc main_arg20) : S64x1.Idx → EReal) (W8 (F := Ideal) m ρ c (Proc.devRef .tc main_v5) : S1x1.Idx → EReal) = _
    rw [W8_main_v66 m ρ c, W8_main_arg18 m ρ c, W8_main_v4 m ρ c, W8_main_arg20 m ρ c, W8_main_v5 m ρ c]
    rfl))

end Cert.KernelIdeal.Trace

end
-- ==== Proof.RefValue.lean ====
/-
  The reference program's result is the network of the specification.

  The reference's run leaves its result at ONE nested term of host operations over the argument arrays.  Read from the
  inside out the term is: the projection of the first side (a contraction, the bias vector placed as a row, spread over
  the rows and added); three means over incoming edges, each a gather of the sending rows, an accumulating scatter of
  them into a zero matrix, and a division by the number of edges that end at the receiving node floored at 1; three
  two-product layers (the bias added between the two products, then the floor at zero); one single-product layer; and
  one last product with its bias.  Each of these spellings is the corresponding whole-array function of the
  specification, for any operands, so the whole term is the network applied to the argument arrays, with each bias
  vector reshaped to one row and with four index columns: an index array placed as a column where a scatter reads it,
  and, where a gather reads it, with a negative word first moved up by the number of sending rows.

  No arithmetic law is used here beyond what those stage equations already contain (the bias added between the two
  products instead of after them: commutativity and associativity of the sum, which hold at the infinities too).
-/
import proofs.«179896_j37967510896698_1_alg».proof.Proof.Gen.ReferenceIdeal.Run
import proofs.«179896_j37967510896698_1_alg».proof.Proof.SageSpec
import proofs.«179896_j37967510896698_1_alg».proof.Proof.LibSegmentMean

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- A vector of 64 entries has as many entries as a one-row matrix of 64 columns. -/
theorem cast_S64_S1x64 : S64.ShapeCasts S1x64 := by decide

/-- A vector of one entry has as many entries as a one-by-one matrix. -/
theorem cast_S1_S1x1 : S1.ShapeCasts S1x1 := by decide

/-- The first side has a node. -/
theorem pos_first : 0 < 100000 := by decide

/-- The second side has a node. -/
theorem pos_second : 0 < 150000 := by decide

set_option maxRecDepth 8192 in
set_option maxHeartbeats 4000000 in
/-- The reference's result array is the network of the specification applied to the argument arrays: the bias vectors
    reshaped to rows; per edge, the sending node of the first side (the first index array, a negative word moved up by
    100000), the receiving node of the first side (the first index array), the sending node of the second side (the
    second index array, a negative word moved up by 150000) and the receiving node of the second side (the second
    index array), each placed as a column. -/
theorem result_eq (m : (ℓ : Loc nD τ sig) → Buf (Elt Ideal) ℓ) (c : Dev nD) :
    Cert.ReferenceIdeal.Value.res_main_v87 (F := Ideal) m c
      = Cert.SageSpec.net (m ((c.tc : Thread nD τ).loc main_arg0)) (m ((c.tc : Thread nD τ).loc main_arg3))
          (m ((c.tc : Thread nD τ).loc main_arg4)) (shapeCast ⟨2, ![1, 64]⟩ (m ((c.tc : Thread nD τ).loc main_arg5)) cast_S64_S1x64)
          (m ((c.tc : Thread nD τ).loc main_arg6)) (shapeCast ⟨2, ![1, 64]⟩ (m ((c.tc : Thread nD τ).loc main_arg7)) cast_S64_S1x64) (m ((c.tc : Thread nD τ).loc main_arg8))
          (m ((c.tc : Thread nD τ).loc main_arg9)) (shapeCast ⟨2, ![1, 64]⟩ (m ((c.tc : Thread nD τ).loc main_arg10)) cast_S64_S1x64) (m ((c.tc : Thread nD τ).loc main_arg11))
          (m ((c.tc : Thread nD τ).loc main_arg12)) (shapeCast ⟨2, ![1, 64]⟩ (m ((c.tc : Thread nD τ).loc main_arg13)) cast_S64_S1x64) (m ((c.tc : Thread nD τ).loc main_arg14))
          (m ((c.tc : Thread nD τ).loc main_arg18)) (shapeCast ⟨2, ![1, 64]⟩ (m ((c.tc : Thread nD τ).loc main_arg19)) cast_S64_S1x64)
          (m ((c.tc : Thread nD τ).loc main_arg20)) (shapeCast ⟨2, ![1, 1]⟩ (m ((c.tc : Thread nD τ).loc main_arg21)) cast_S1_S1x1)
          (broadcastInDim S2000000x1 ![0] bcast_S2000000_S2000000x1_0 (select (cmpi .slt (m ((c.tc : Thread nD τ).loc main_arg1)) (broadcastInDim S2000000 ![] bcast_S_S2000000 (constantI S_ 32 0#32))) (addi (m ((c.tc : Thread nD τ).loc main_arg1)) (broadcastInDim S2000000 ![] bcast_S_S2000000 (constantI S_ 32 100000#32))) (m ((c.tc : Thread nD τ).loc main_arg1))))
          (broadcastInDim S2000000x1 ![0] bcast_S2000000_S2000000x1_0 (m ((c.tc : Thread nD τ).loc main_arg1)))
          (broadcastInDim S2000000x1 ![0] bcast_S2000000_S2000000x1_0 (select (cmpi .slt (m ((c.tc : Thread nD τ).loc main_arg2)) (broadcastInDim S2000000 ![] bcast_S_S2000000 (constantI S_ 32 0#32))) (addi (m ((c.tc : Thread nD τ).loc main_arg2)) (broadcastInDim S2000000 ![] bcast_S_S2000000 (constantI S_ 32 150000#32))) (m ((c.tc : Thread nD τ).loc main_arg2))))
          (broadcastInDim S2000000x1 ![0] bcast_S2000000_S2000000x1_0 (m ((c.tc : Thread nD τ).loc main_arg2))) := by
  unfold Cert.ReferenceIdeal.Value.res_main_v87
  -- the projection of the first side (it stands twice in the term: under a gather, and as the middle layer's own rows)
  rw [Cert.LibDualLayer.host_lin dot_S100000x128_S128x64_S100000x64_1_0_0_1_n_n rfl rfl rfl rfl rfl rfl
    bcast_S64_S1x64_1 bcast_S1x64_S100000x64_0_1 cast_S64_S1x64 (m ((c.tc : Thread nD τ).loc main_arg0)) (m ((c.tc : Thread nD τ).loc main_arg4)) (m ((c.tc : Thread nD τ).loc main_arg5))]
  -- the mean sent to the second side from the projected first side, and the first layer of the second side
  rw [Cert.LibSegmentMean.host_segMean pos_first
    gather_S100000x64_S2000000x1_S2000000x64_1_0_n_n_0_1_164 rfl rfl rfl rfl rfl rfl rfl
    scatter_S150000x64_S2000000x1_S2000000x64_1_0_0_1 rfl rfl rfl rfl
    scatter_S150000x1_S2000000x1_S2000000x1_1_0_0_1 rfl rfl rfl rfl
    bcast_S_S150000x64 bcast_S_S150000x1 bcast_S_S2000000x1 bcast_S150000x1_S150000x64_0_1
    (Cert.LibDualLayer.lin (m ((c.tc : Thread nD τ).loc main_arg0)) (m ((c.tc : Thread nD τ).loc main_arg4)) (shapeCast ⟨2, ![1, 64]⟩ (m ((c.tc : Thread nD τ).loc main_arg5)) cast_S64_S1x64))
    (broadcastInDim S2000000x1 ![0] bcast_S2000000_S2000000x1_0 (select (cmpi .slt (m ((c.tc : Thread nD τ).loc main_arg1)) (broadcastInDim S2000000 ![] bcast_S_S2000000 (constantI S_ 32 0#32))) (addi (m ((c.tc : Thread nD τ).loc main_arg1)) (broadcastInDim S2000000 ![] bcast_S_S2000000 (constantI S_ 32 100000#32))) (m ((c.tc : Thread nD τ).loc main_arg1))))
    (broadcastInDim S2000000x1 ![0] bcast_S2000000_S2000000x1_0 (m ((c.tc : Thread nD τ).loc main_arg2)))]
  rw [Cert.LibDualLayer.host_dual dot_S150000x64_S64x64_S150000x64_1_0_0_1_n_n dot_S150000x64_S64x64_S150000x64_1_0_0_1_n_n
    rfl rfl rfl rfl rfl rfl rfl rfl rfl rfl rfl rfl
    bcast_S64_S1x64_1 bcast_S1x64_S150000x64_0_1 bcast_S_S150000x64 cast_S64_S1x64 _ (m ((c.tc : Thread nD τ).loc main_arg6)) (m ((c.tc : Thread nD τ).loc main_arg3)) (m ((c.tc : Thread nD τ).loc main_arg8)) (m ((c.tc : Thread nD τ).loc main_arg7))]
  -- the mean sent to the first side from the second side's own rows, and the middle layer of the first side
  rw [Cert.LibSegmentMean.host_segMean pos_second
    gather_S150000x64_S2000000x1_S2000000x64_1_0_n_n_0_1_164 rfl rfl rfl rfl rfl rfl rfl
    scatter_S100000x64_S2000000x1_S2000000x64_1_0_0_1 rfl rfl rfl rfl
    scatter_S100000x1_S2000000x1_S2000000x1_1_0_0_1 rfl rfl rfl rfl
    bcast_S_S100000x64 bcast_S_S100000x1 bcast_S_S2000000x1 bcast_S100000x1_S100000x64_0_1
    (m ((c.tc : Thread nD τ).loc main_arg3))
    (broadcastInDim S2000000x1 ![0] bcast_S2000000_S2000000x1_0 (select (cmpi .slt (m ((c.tc : Thread nD τ).loc main_arg2)) (broadcastInDim S2000000 ![] bcast_S_S2000000 (constantI S_ 32 0#32))) (addi (m ((c.tc : Thread nD τ).loc main_arg2)) (broadcastInDim S2000000 ![] bcast_S_S2000000 (constantI S_ 32 150000#32))) (m ((c.tc : Thread nD τ).loc main_arg2))))
    (broadcastInDim S2000000x1 ![0] bcast_S2000000_S2000000x1_0 (m ((c.tc : Thread nD τ).loc main_arg1)))]
  rw [Cert.LibDualLayer.host_dual dot_S100000x64_S64x64_S100000x64_1_0_0_1_n_n dot_S100000x64_S64x64_S100000x64_1_0_0_1_n_n
    rfl rfl rfl rfl rfl rfl rfl rfl rfl rfl rfl rfl
    bcast_S64_S1x64_1 bcast_S1x64_S100000x64_0_1 bcast_S_S100000x64 cast_S64_S1x64 _ (m ((c.tc : Thread nD τ).loc main_arg9)) _ (m ((c.tc : Thread nD τ).loc main_arg11)) (m ((c.tc : Thread nD τ).loc main_arg10))]
  -- the mean sent to the second side from the middle layer, and the second layer of the second side
  rw [Cert.LibSegmentMean.host_segMean pos_first
    gather_S100000x64_S2000000x1_S2000000x64_1_0_n_n_0_1_164 rfl rfl rfl rfl rfl rfl rfl
    scatter_S150000x64_S2000000x1_S2000000x64_1_0_0_1 rfl rfl rfl rfl
    scatter_S150000x1_S2000000x1_S2000000x1_1_0_0_1 rfl rfl rfl rfl
    bcast_S_S150000x64 bcast_S_S150000x1 bcast_S_S2000000x1 bcast_S150000x1_S150000x64_0_1]
  rw [Cert.LibDualLayer.host_dual dot_S150000x64_S64x64_S150000x64_1_0_0_1_n_n dot_S150000x64_S64x64_S150000x64_1_0_0_1_n_n
    rfl rfl rfl rfl rfl rfl rfl rfl rfl rfl rfl rfl
    bcast_S64_S1x64_1 bcast_S1x64_S150000x64_0_1 bcast_S_S150000x64 cast_S64_S1x64 _ (m ((c.tc : Thread nD τ).loc main_arg12)) _ (m ((c.tc : Thread nD τ).loc main_arg14)) (m ((c.tc : Thread nD τ).loc main_arg13))]
  -- the head: one single-product layer, then the last product with its bias
  rw [Cert.LibLayer.host_layer dot_S150000x64_S64x64_S150000x64_1_0_0_1_n_n rfl rfl rfl rfl rfl rfl
    bcast_S64_S1x64_1 bcast_S1x64_S150000x64_0_1 bcast_S_S150000x64 cast_S64_S1x64 _ (m ((c.tc : Thread nD τ).loc main_arg18)) (m ((c.tc : Thread nD τ).loc main_arg19))]
  rw [Cert.LibDualLayer.host_lin dot_S150000x64_S64x1_S150000x1_1_0_0_1_n_n rfl rfl rfl rfl rfl rfl
    bcast_S1_S1x1_1 bcast_S1x1_S150000x1_0_1 cast_S1_S1x1 _ (m ((c.tc : Thread nD τ).loc main_arg20)) (m ((c.tc : Thread nD τ).loc main_arg21))]
  rfl

end Cert.ReferenceIdeal.RefValue

end
-- ==== Proof.lean ====
/-
  A two-layer mean-aggregation network on a two-sided graph: the kernel program and the reference compute one function.

  Both programs project the 100000-node side to 64 features, average node rows along 2000000 edges onto the other
  side (a gather of the sending rows, an accumulating scatter into the receiving rows, a division by the number of
  incoming edges floored at 1), combine the averaged rows with the receiving side's own rows through two weight
  matrices, a bias row and a floor at zero — twice for the 150000-node side, with the other side's middle layer in
  between — and end with a two-stage head giving one number per node of the 150000-node side.  The kernel program runs
  the dense stages in five kernel regions, each walking its row-blocked operands in blocks of 5000 rows with narrower
  float formats in front of the matrix unit, and the aggregations as host operations between the regions; the
  reference runs everything as host operations.

  On the extended reals a change of float format is the identity, a matrix unit's product into a zero accumulator is
  the host's contraction, and each dense stage works one row at a time, so a stage computed block by block is the stage
  of the whole arrays.  Two differences of arrangement remain.  The kernel adds the bias row after both products of a
  combining layer and the reference between them: the same matrix, by commutativity and associativity of addition,
  which hold on the extended reals at the infinities too.  The kernel counts incoming edges in a vector and then places
  it as a column, the reference counts in a column: the same count at every node.  Nothing is distributed or
  cancelled, so the precondition that the float inputs are finite is never used.

  The idealization rewrote no operation, so the idealized kernel is the kernel's own text read on the extended reals.
-/
import proofs.«179896_j37967510896698_1_alg».proof.Defs
import proofs.«179896_j37967510896698_1_alg».proof.Proof.Gen.Kernel
import proofs.«179896_j37967510896698_1_alg».proof.Proof.Gen.Kernel.Skeleton
import proofs.«179896_j37967510896698_1_alg».proof.Proof.Gen.Kernel.Launch
import proofs.«179896_j37967510896698_1_alg».proof.Proof.Gen.Kernel.Points
import proofs.«179896_j37967510896698_1_alg».proof.Proof.Gen.Kernel.Frame
import proofs.«179896_j37967510896698_1_alg».proof.Proof.Gen.KernelIdeal
import proofs.«179896_j37967510896698_1_alg».proof.Proof.Gen.KernelIdeal.Skeleton
import proofs.«179896_j37967510896698_1_alg».proof.Proof.Gen.KernelIdeal.Launch
import proofs.«179896_j37967510896698_1_alg».proof.Proof.Gen.KernelIdeal.Points
import proofs.«179896_j37967510896698_1_alg».proof.Proof.Gen.KernelIdeal.Frame
import proofs.«179896_j37967510896698_1_alg».proof.Proof.Gen.ReferenceIdeal
import proofs.«179896_j37967510896698_1_alg».proof.Proof.Gen.ReferenceIdeal.Run
import proofs.«179896_j37967510896698_1_alg».proof.Proof.Gen.Pre_finite_inputs
import proofs.«179896_j37967510896698_1_alg».proof.Proof.KernelRun
import proofs.«179896_j37967510896698_1_alg».proof.Proof.KernelValue
import proofs.«179896_j37967510896698_1_alg».proof.Proof.RefValue
import Idealize.ShloMosaic.Adequacy
import Idealize.ShloMosaic.Init

set_option maxRecDepth 16384

noncomputable section

namespace Cert.Proof

open Idealize.ShloMosaic Idealize.SL.Sem

/-- The kernel as printed runs, and its arguments end as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network's value in their result buffers: the
    kernel's run leaves the chained stages there, the reference's run its one composed term, and both are `net` of the
    argument arrays. -/
theorem algebraic : Cert.algebraic_KernelIdeal_ReferenceIdeal := by
  intro m ρ m' ρ' _ hagree
  refine ⟨fun c => Cert.KernelIdeal.Trace.headOut m c, ?_, ?_⟩
  · exact (θ_run Cert.KernelIdeal.defs _ _).mono
      (fun r h c => ⟨(h c).1.trans (Cert.KernelIdeal.Trace.W9_main_v67 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq m' c).trans
      (Eq.trans ?_ (Cert.KernelIdeal.Trace.headOut_eq_net m c).symm)
    obtain ⟨h0, h1, h2, h3, h4, h5, h6, h7, h8, h9, h10, h11, h12, h13, h14, h15, h16, h17, h18, h19, h20, h21⟩ := hagree c
    rw [h0, h1, h2, h3, h4, h5, h6, h7, h8, h9, h10, h11, h12, h13, h14, h18, h19, h20, h21] <;> rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
